-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x16 : Shape := ⟨2, ![300000, 16]⟩
abbrev S2x4800000 : Shape := ⟨2, ![2, 4800000]⟩
abbrev S300000 : Shape := ⟨1, ![300000]⟩
abbrev S3x16x16 : Shape := ⟨3, ![3, 16, 16]⟩
abbrev S3x16 : Shape := ⟨2, ![3, 16]⟩
abbrev S16x1 : Shape := ⟨2, ![16, 1]⟩
abbrev S1 : Shape := ⟨1, ![1]⟩
abbrev S_ : Shape := ⟨0, ![]⟩

class Facts : Prop where
  bcast_S_S300000x16 : S_.BroadcastsInDim S300000x16 (![] : Fin 0 → Fin S300000x16.rank)
  reducesTo_S300000x16_S_d0_1 : S300000x16.ReducesTo [0, 1] S_
  h_S_ : 0 < S_.numel
  bcast_S_S3x16x16 : S_.BroadcastsInDim S3x16x16 (![] : Fin 0 → Fin S3x16x16.rank)
  reducesTo_S3x16x16_S_d0_1_2 : S3x16x16.ReducesTo [0, 1, 2] S_
  bcast_S_S3x16 : S_.BroadcastsInDim S3x16 (![] : Fin 0 → Fin S3x16.rank)
  reducesTo_S3x16_S_d0_1 : S3x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S16x1 .f32) (main_arg7 : FVec F S1 .f32) (main_v13 : IVec S_ 1) (main_v16 : IVec S3x16x16 1) : IVec S_ 1 :=
  let main_c_5 : IVec S_ 1 := constantI S_ 1 1#1
  let main_v17 : IVec S_ 1 := (fun x v => Host.reduce IntOp.andi x v reducesTo_S3x16x16_S_d0_1_2 h_S_) main_v16 main_c_5
  let main_v18 : IVec S_ 1 := andi main_v13 main_v17
  let main_v19 : FVec F S16x1 .f32 := Host.absf main_arg6
  let main_cst_6 : FVec F S_ .f32 := constant S_ .f32 0x7F800000#32
  let main_v20 : FVec F S16x1 .f32 := broadcastInDim S16x1 ![] bcast_S_S16x1 main_cst_6
  let main_v21 : IVec S16x1 1 := cmpf .olt main_v19 main_v20
  let main_c_7 : IVec S_ 1 := constantI S_ 1 1#1
  let main_v22 : IVec S_ 1 := (fun x v => Host.reduce IntOp.andi x v reducesTo_S16x1_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S300000x16 .f32) (main_arg1 : IVec S2x4800000 32) (main_arg2 : IVec S300000 32) (main_arg3 : FVec F S3x16x16 .f32) (main_arg4 : FVec F S3x16 .f32) (main_arg5 : FVec F S3x16x16 .f32) (main_arg6 : FVec F S16x1 .f32) (main_arg7 : FVec F S1 .f32) : IVec S_ 1 :=
  let main_v0 : FVec F S300000x16 .f32 := Host.absf main_arg0
  let main_cst : FVec F S_ .f32 := constant S_ .f32 0x7F800000#32
  let main_v1 : FVec F S300000x16 .f32 := broadcastInDim S300000x16 ![] bcast_S_S300000x16 main_cst
  let main_v2 : IVec S300000x16 1 := cmpf .olt main_v0 main_v1
  let main_c : IVec S_ 1 := constantI S_ 1 1#1
  let main_v3 : IVec S_ 1 := (fun x v => Host.reduce IntOp.andi x v reducesTo_S300000x16_S_d0_1 h_S_) main_v2 main_c
  let main_v4 : FVec F S3x16x16 .f32 := Host.absf main_arg3
  let main_cst_0 : FVec F S_ .f32 := constant S_ .f32 0x7F800000#32
  let main_v5 : FVec F S3x16x16 .f32 := broadcastInDim S3x16x16 ![] bcast_S_S3x16x16 main_cst_0
  let main_v6 : IVec S3x16x16 1 := cmpf .olt main_v4 main_v5
  let main_c_1 : IVec S_ 1 := constantI S_ 1 1#1
  let main_v7 : IVec S_ 1 := (fun x v => Host.reduce IntOp.andi x v reducesTo_S3x16x16_S_d0_1_2 h_S_) main_v6 main_c_1
  let main_v8 : IVec S_ 1 := andi main_v3 main_v7
  let main_v9 : FVec F S3x16 .f32 := Host.absf main_arg4
  let main_cst_2 : FVec F S_ .f32 := constant S_ .f32 0x7F800000#32
  let main_v10 : FVec F S3x16 .f32 := broadcastInDim S3x16 ![] bcast_S_S3x16 main_cst_2
  let main_v11 : IVec S3x16 1 := cmpf .olt main_v9 main_v10
  let main_c_3 : IVec S_ 1 := constantI S_ 1 1#1
  let main_v12 : IVec S_ 1 := (fun x v => Host.reduce IntOp.andi x v reducesTo_S3x16_S_d0_1 h_S_) main_v11 main_c_3
  let main_v13 : IVec S_ 1 := andi main_v8 main_v12
  let main_v14 : FVec F S3x16x16 .f32 := Host.absf main_arg5
  let main_cst_4 : FVec F S_ .f32 := constant S_ .f32 0x7F800000#32
  let main_v15 : FVec F S3x16x16 .f32 := broadcastInDim S3x16x16 ![] bcast_S_S3x16x16 main_cst_4
  let main_v16 : IVec S3x16x16 1 := cmpf .olt main_v14 main_v15
  fn_part1 (F := F) main_arg6 main_arg7 main_v13 main_v16
-- ==== Kernel.lean ====
abbrev S300000x16 : Shape := ⟨2, ![300000, 16]⟩
abbrev S2x4800000 : Shape := ⟨2, ![2, 4800000]⟩
abbrev S300000 : Shape := ⟨1, ![300000]⟩
abbrev S3x16x16 : Shape := ⟨3, ![3, 16, 16]⟩
abbrev S3x16 : Shape := ⟨2, ![3, 16]⟩
abbrev S16x1 : Shape := ⟨2, ![16, 1]⟩
abbrev S1 : Shape := ⟨1, ![1]⟩
abbrev S1x4800000 : Shape := ⟨2, ![1, 4800000]⟩
abbrev S4800000 : Shape := ⟨1, ![4800000]⟩
abbrev S_ : Shape := ⟨0, ![]⟩
abbrev S4800000x1 : Shape := ⟨2, ![4800000, 1]⟩
abbrev S300000x1 : Shape := ⟨2, ![300000, 1]⟩
abbrev S4800000x16 : Shape := ⟨2, ![4800000, 16]⟩
abbrev S1x16x16 : Shape := ⟨3, ![1, 16, 16]⟩
abbrev S16x16 : Shape := ⟨2, ![16, 16]⟩
abbrev S1x16 : Shape := ⟨2, ![1, 16]⟩
abbrev S16 : Shape := ⟨1, ![16]⟩
abbrev S3000x16 : Shape := ⟨2, ![3000, 16]⟩
abbrev S3000x1 : Shape := ⟨2, ![3000, 1]⟩
abbrev S1000x16 : Shape := ⟨2, ![1000, 16]⟩
abbrev S1000 : Shape := ⟨1, ![1000]⟩
abbrev S1000x1 : Shape := ⟨2, ![1000, 1]⟩
abbrev S1x1 : Shape := ⟨2, ![1, 1]⟩

abbrev nBuf : Space → Nat
  | .hbm => 101
  | .vmem => 38
  | .smem => 0
  | _ => 0

abbrev bufTy : (tb : Table) → Fin (tcTables nBuf tb) → BufTy
  | .hbm, ⟨0, _⟩ => ⟨S300000x16, .f32⟩
  | .hbm, ⟨1, _⟩ => ⟨S2x4800000, .i32⟩
  | .hbm, ⟨2, _⟩ => ⟨S300000, .i32⟩
  | .hbm, ⟨3, _⟩ => ⟨S3x16x16, .f32⟩
  | .hbm, ⟨4, _⟩ => ⟨S3x16, .f32⟩
  | .hbm, ⟨5, _⟩ => ⟨S3x16x16, .f32⟩
  | .hbm, ⟨6, _⟩ => ⟨S16x1, .f32⟩
  | .hbm, ⟨7, _⟩ => ⟨S1, .f32⟩
  | .hbm, ⟨8, _⟩ => ⟨S1x4800000, .i32⟩
  | .hbm, ⟨9, _⟩ => ⟨S4800000, .i32⟩
  | .hbm, ⟨10, _⟩ => ⟨S1x4800000, .i32⟩
  | .hbm, ⟨11, _⟩ => ⟨S4800000, .i32⟩
  | .hbm, ⟨12, _⟩ => ⟨S_, .f32⟩
  | .hbm, ⟨13, _⟩ => ⟨S4800000, .f32⟩
  | .hbm, ⟨14, _⟩ => ⟨S_, .f32⟩
  | .hbm, ⟨15, _⟩ => ⟨S300000, .f32⟩
  | .hbm, ⟨16, _⟩ => ⟨S4800000x1, .i32⟩
  | .hbm, ⟨17, _⟩ => ⟨S300000, .f32⟩
  | .hbm, ⟨18, _⟩ => ⟨S_, .f32⟩
  | .hbm, ⟨19, _⟩ => ⟨S300000, .f32⟩
  | .hbm, ⟨20, _⟩ => ⟨S300000, .f32⟩
  | .hbm, ⟨21, _⟩ => ⟨S_, .f32⟩
  | .hbm, ⟨22, _⟩ => ⟨S300000, .f32⟩
  | .hbm, ⟨23, _⟩ => ⟨S300000, .f32⟩
  | .hbm, ⟨24, _⟩ => ⟨S300000x1, .f32⟩
  | .hbm, ⟨25, _⟩ => ⟨S_, .i32⟩
  | .hbm, ⟨26, _⟩ => ⟨S4800000, .i32⟩
  | .hbm, ⟨27, _⟩ => ⟨S4800000, .i1⟩
  | .hbm, ⟨28, _⟩ => ⟨S_, .i32⟩
  | .hbm, ⟨29, _⟩ => ⟨S4800000, .i32⟩
  | .hbm, ⟨30, _⟩ => ⟨S4800000, .i32⟩
  | .hbm, ⟨31, _⟩ => ⟨S4800000, .i32⟩
  | .hbm, ⟨32, _⟩ => ⟨S4800000x1, .i32⟩
  | .hbm, ⟨33, _⟩ => ⟨S4800000x16, .f32⟩
  | .hbm, ⟨34, _⟩ => ⟨S_, .f32⟩
  | .hbm, ⟨35, _⟩ => ⟨S300000x16, .f32⟩
  | .hbm, ⟨36, _⟩ => ⟨S4800000x1, .i32⟩
  | .hbm, ⟨37, _⟩ => ⟨S300000x16, .f32⟩
  | .hbm, ⟨38, _⟩ => ⟨S1x16x16, .f32⟩
  | .hbm, ⟨39, _⟩ => ⟨S16x16, .f32⟩
  | .hbm, ⟨40, _⟩ => ⟨S1x16, .f32⟩
  | .hbm, ⟨41, _⟩ => ⟨S16, .f32⟩
  | .hbm, ⟨42, _⟩ => ⟨S1x16x16, .f32⟩
  | .hbm, ⟨43, _⟩ => ⟨S16x16, .f32⟩
  | .hbm, ⟨44, _⟩ => ⟨S1x16, .f32⟩
  | .hbm, ⟨45, _⟩ => ⟨S300000x16, .f32⟩
  | .hbm, ⟨46, _⟩ => ⟨S_, .i32⟩
  | .hbm, ⟨47, _⟩ => ⟨S4800000, .i32⟩
  | .hbm, ⟨48, _⟩ => ⟨S4800000, .i1⟩
  | .hbm, ⟨49, _⟩ => ⟨S_, .i32⟩
  | .hbm, ⟨50, _⟩ => ⟨S4800000, .i32⟩
  | .hbm, ⟨51, _⟩ => ⟨S4800000, .i32⟩
  | .hbm, ⟨52, _⟩ => ⟨S4800000, .i32⟩
  | .hbm, ⟨53, _⟩ => ⟨S4800000x1, .i32⟩
  | .hbm, ⟨54, _⟩ => ⟨S4800000x16, .f32⟩
  | .hbm, ⟨55, _⟩ => ⟨S_, .f32⟩
  | .hbm, ⟨56, _⟩ => ⟨S300000x16, .f32⟩
  | .hbm, ⟨57, _⟩ => ⟨S4800000x1, .i32⟩
  | .hbm, ⟨58, _⟩ => ⟨S300000x16, .f32⟩
  | .hbm, ⟨59, _⟩ => ⟨S1x16x16, .f32⟩
  | .hbm, ⟨60, _⟩ => ⟨S16x16, .f32⟩
  | .hbm, ⟨61, _⟩ => ⟨S1x16, .f32⟩
  | .hbm, ⟨62, _⟩ => ⟨S16, .f32⟩
  | .hbm, ⟨63, _⟩ => ⟨S1x16x16, .f32⟩
  | .hbm, ⟨64, _⟩ => ⟨S16x16, .f32⟩
  | .hbm, ⟨65, _⟩ => ⟨S1x16, .f32⟩
  | .hbm, ⟨66, _⟩ => ⟨S300000x16, .f32⟩
  | .hbm, ⟨67, _⟩ => ⟨S_, .i32⟩
  | .hbm, ⟨68, _⟩ => ⟨S4800000, .i32⟩
  | .hbm, ⟨69, _⟩ => ⟨S4800000, .i1⟩
  | .hbm, ⟨70, _⟩ => ⟨S_, .i32⟩
  | .hbm, ⟨71, _⟩ => ⟨S4800000, .i32⟩
  | .hbm, ⟨72, _⟩ => ⟨S4800000, .i32⟩
  | .hbm, ⟨73, _⟩ => ⟨S4800000, .i32⟩
  | .hbm, ⟨74, _⟩ => ⟨S4800000x1, .i32⟩
  | .hbm, ⟨75, _⟩ => ⟨S4800000x16, .f32⟩
  | .hbm, ⟨76, _⟩ => ⟨S_, .f32⟩
  | .hbm, ⟨77, _⟩ => ⟨S300000x16, .f32⟩
  | .hbm, ⟨78, _⟩ => ⟨S4800000x1, .i32⟩
  | .hbm, ⟨79, _⟩ => ⟨S300000x16, .f32⟩
  | .hbm, ⟨80, _⟩ => ⟨S1x16x16, .f32⟩
  | .hbm, ⟨81, _⟩ => ⟨S16x16, .f32⟩
  | .hbm, ⟨82, _⟩ => ⟨S1x16, .f32⟩
  | .hbm, ⟨83, _⟩ => ⟨S16, .f32⟩
  | .hbm, ⟨84, _⟩ => ⟨S1x16x16, .f32⟩
  | .hbm, ⟨85, _⟩ => ⟨S16x16, .f32⟩
  | .hbm, ⟨86, _⟩ => ⟨S1x16, .f32⟩
  | .hbm, ⟨87, _⟩ => ⟨S300000x16, .f32⟩
  | .hbm, ⟨88, _⟩ => ⟨S_, .f32⟩
  | .hbm, ⟨89, _⟩ => ⟨S300000, .f32⟩
  | .hbm, ⟨90, _⟩ => ⟨S_, .f32⟩
  | .hbm, ⟨91, _⟩ => ⟨S1000x16, .f32⟩
  | .hbm, ⟨92, _⟩ => ⟨S300000x1, .i32⟩
  | .hbm, ⟨93, _⟩ => ⟨S1000x16, .f32⟩
  | .hbm, ⟨94, _⟩ => ⟨S_, .f32⟩
  | .hbm, ⟨95, _⟩ => ⟨S1000, .f32⟩
  | .hbm, ⟨96, _⟩ => ⟨S300000x1, .i32⟩
  | .hbm, ⟨97, _⟩ => ⟨S1000, .f32⟩
  | .hbm, ⟨98, _⟩ => ⟨S1000x1, .f32⟩
  | .hbm, ⟨99, _⟩ => ⟨S1x1, .f32⟩
  | .hbm, ⟨100, _⟩ => ⟨S1000x1, .f32⟩
  | .local _ .vmem, ⟨0, _⟩ => ⟨S3000x16, .f32⟩
  | .local _ .vmem, ⟨1, _⟩ => ⟨S3000x16, .f32⟩
  | .local _ .vmem, ⟨2, _⟩ => ⟨S3000x16, .f32⟩
  | .local _ .vmem, ⟨3, _⟩ => ⟨S3000x16, .f32⟩
  | .local _ .vmem, ⟨4, _⟩ => ⟨S3000x1, .f32⟩
  | .local _ .vmem, ⟨5, _⟩ => ⟨S3000x1, .f32⟩
  | .local _ .vmem, ⟨6, _⟩ => ⟨S16x16, .f32⟩
  | .local _ .vmem, ⟨7, _⟩ => ⟨S1x16, .f32⟩
  | .local _ .vmem, ⟨8, _⟩ => ⟨S16x16, .f32⟩
  | .local _ .vmem, ⟨9, _⟩ => ⟨S3000x16, .f32⟩
  | .local _ .vmem, ⟨10, _⟩ => ⟨S3000x16, .f32⟩
  | .local _ .vmem, ⟨11, _⟩ => ⟨S3000x16, .f32⟩
  | .local _ .vmem, ⟨12, _⟩ => ⟨S3000x16, .f32⟩
  | .local _ .vmem, ⟨13, _⟩ => ⟨S3000x16, .f32⟩
  | .local _ .vmem, ⟨14, _⟩ => ⟨S3000x16, .f32⟩
  | .local _ .vmem, ⟨15, _⟩ => ⟨S3000x1, .f32⟩
  | .local _ .vmem, ⟨16, _⟩ => ⟨S3000x1, .f32⟩
  | .local _ .vmem, ⟨17, _⟩ => ⟨S16x16, .f32⟩
  | .local _ .vmem, ⟨18, _⟩ => ⟨S1x16, .f32⟩
  | .local _ .vmem, ⟨19, _⟩ => ⟨S16x16, .f32⟩
  | .local _ .vmem, ⟨20, _⟩ => ⟨S3000x16, .f32⟩
  | .local _ .vmem, ⟨21, _⟩ => ⟨S3000x16, .f32⟩
  | .local _ .vmem, ⟨22, _⟩ => ⟨S3000x16, .f32⟩
  | .local _ .vmem, ⟨23, _⟩ => ⟨S3000x16, .f32⟩
  | .local _ .vmem, ⟨24, _⟩ => ⟨S3000x16, .f32⟩
  | .local _ .vmem, ⟨25, _⟩ => ⟨S3000x16, .f32⟩
  | .local _ .vmem, ⟨26, _⟩ => ⟨S3000x1, .f32⟩
  | .local _ .vmem, ⟨27, _⟩ => ⟨S3000x1, .f32⟩
  | .local _ .vmem, ⟨28, _⟩ => ⟨S16x16, .f32⟩
  | .local _ .vmem, ⟨29, _⟩ => ⟨S1x16, .f32⟩
  | .local _ .vmem, ⟨30, _⟩ => ⟨S16x16, .f32⟩
  | .local _ .vmem, ⟨31, _⟩ => ⟨S3000x16, .f32⟩
  | .local _ .vmem, ⟨32, _⟩ => ⟨S3000x16, .f32⟩
  | .local _ .vmem, ⟨33, _⟩ => ⟨S1000x16, .f32⟩
  | .local _ .vmem, ⟨34, _⟩ => ⟨S1000x1, .f32⟩
  | .local _ .vmem, ⟨35, _⟩ => ⟨S16x1, .f32⟩
  | .local _ .vmem, ⟨36, _⟩ => ⟨S1x1, .f32⟩
  | .local _ .vmem, ⟨37, _⟩ => ⟨S1000x1, .f32⟩
  | _, _ => ⟨S300000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_8 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_11 : Ref sig .tc := ⟨.hbm, 88, rfl⟩
abbrev main_v67 : Ref sig .tc := ⟨.hbm, 89, rfl⟩
abbrev main_cst_12 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem1_0 : DmaSem sig := 34
abbrev cc3_sem2_0 : DmaSem sig := 35
abbrev cc3_sem3_0 : DmaSem sig := 36
abbrev cc3_sem4_0 : DmaSem sig := 37

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3000x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S3000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S3000x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1000x16 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1000x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S16x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1000x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  slices_S2x4800000_S1x4800000_0_0 : S2x4800000.Slices ![0, 0] S1x4800000
  shapeCasts_S1x4800000_S4800000 : S1x4800000.ShapeCasts S4800000
  slices_S2x4800000_S1x4800000_1_0 : S2x4800000.Slices ![1, 0] S1x4800000
  bcast_S_S4800000 : S_.BroadcastsInDim S4800000 (![] : Fin 0 → Fin S4800000.rank)
  bcast_S_S300000 : S_.BroadcastsInDim S300000 (![] : Fin 0 → Fin S300000.rank)
  bcast_S4800000_S4800000x1_0 : S4800000.BroadcastsInDim S4800000x1 (![0] : Fin 1 → Fin S4800000x1.rank)
  shapeCasts_S300000_S300000x1 : S300000.ShapeCasts S300000x1
  bcast_S_S300000x16 : S_.BroadcastsInDim S300000x16 (![] : Fin 0 → Fin S300000x16.rank)
  slices_S3x16x16_S1x16x16_0_0_0 : S3x16x16.Slices ![0, 0, 0] S1x16x16
  shapeCasts_S1x16x16_S16x16 : S1x16x16.ShapeCasts S16x16
  slices_S3x16_S1x16_0_0 : S3x16.Slices ![0, 0] S1x16
  shapeCasts_S1x16_S16 : S1x16.ShapeCasts S16
  shapeCasts_S16_S1x16 : S16.ShapeCasts S1x16
  inb_S3000x16_S3000x16_0_0 : ∀ a, (![0, 0] : Fin 2 → Nat) a + S3000x16.size a ≤ S3000x16.size a
  h_S3000x16 : 0 < S3000x16.numel
  shapeCasts_S3000x16_S3000x16 : S3000x16.ShapeCasts S3000x16
  inb_S3000x1_S3000x1_0_0 : ∀ a, (![0, 0] : Fin 2 → Nat) a + S3000x1.size a ≤ S3000x1.size a
  h_S3000x1 : 0 < S3000x1.numel
  shapeCasts_S3000x1_S3000x1 : S3000x1.ShapeCasts S3000x1
  broadcasts_S3000x1_S3000x16 : S3000x1.Broadcasts S3000x16
  bitsLt_bf16_f32 : FTy.bits .bf16 < FTy.bits .f32
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S3000x16 : S1x16.Broadcasts S3000x16
  slices_S3x16x16_S1x16x16_1_0_0 : S3x16x16.Slices ![1, 0, 0] S1x16x16
  slices_S3x16_S1x16_1_0 : S3x16.Slices ![1, 0] S1x16
  slices_S3x16x16_S1x16x16_2_0_0 : S3x16x16.Slices ![2, 0, 0] S1x16x16
  slices_S3x16_S1x16_2_0 : S3x16.Slices ![2, 0] S1x16
  bcast_S_S1000x16 : S_.BroadcastsInDim S1000x16 (![] : Fin 0 → Fin S1000x16.rank)
  bcast_S300000_S300000x1_0 : S300000.BroadcastsInDim S300000x1 (![0] : Fin 1 → Fin S300000x1.rank)
  bcast_S_S1000 : S_.BroadcastsInDim S1000 (![] : Fin 0 → Fin S1000.rank)
  shapeCasts_S1000_S1000x1 : S1000.ShapeCasts S1000x1
  shapeCasts_S1_S1x1 : S1.ShapeCasts S1x1
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S1000x16_S1000x16_0_0 : ∀ a, (![0, 0] : Fin 2 → Nat) a + S1000x16.size a ≤ S1000x16.size a
  h_S1000x16 : 0 < S1000x16.numel
  shapeCasts_S1000x16_S1000x16 : S1000x16.ShapeCasts S1000x16
  broadcasts_S1000x1_S1000x16 : S1000x1.Broadcasts S1000x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  scatter_S300000_S4800000x1_S4800000_n_0_0_1_wf : ScatterDims.WF S300000 S4800000x1 S4800000 [] [0] [0] 1
  gather_S300000x16_S4800000x1_S4800000x16_1_0_n_n_0_1_116_wf : GatherDims.WF S300000x16 S4800000x1 S4800000x16 [1] [0] [] [0] [] 1 ![1, 16]
  scatter_S300000x16_S4800000x1_S4800000x16_1_0_0_1_wf : ScatterDims.WF S300000x16 S4800000x1 S4800000x16 [1] [0] [0] 1
  dot_S3000x16_S16x16_S3000x16_1_0_0_1_n_n_wf : DotDims.WF S3000x16 S16x16 S3000x16 [1] [0] [0] [1] [] []
  scatter_S1000x16_S300000x1_S300000x16_1_0_0_1_wf : ScatterDims.WF S1000x16 S300000x1 S300000x16 [1] [0] [0] 1
  scatter_S1000_S300000x1_S300000_n_0_0_1_wf : ScatterDims.WF S1000 S300000x1 S300000 [] [0] [0] 1
  dot_S1000x16_S16x1_S1000x1_1_0_0_1_n_n_wf : DotDims.WF S1000x16 S16x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x16.size a ≤ S300000x16.size a
  hwx0_0 : ∀ i : grid0.Coords, EltTy.bits .f32 = 32 ∨ (Rect.block (s := S300000x16) S3000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x16.size a ≤ S300000x16.size a
  hwx0_1 : ∀ i : grid0.Coords, EltTy.bits .f32 = 32 ∨ (Rect.block (s := S300000x16) S3000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x1.size a ≤ S300000x1.size a
  hwx0_2 : ∀ i : grid0.Coords, EltTy.bits .f32 = 32 ∨ (Rect.block (s := S300000x1) S3000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x16.size a ≤ S16x16.size a
  hwx0_5 : ∀ i : grid0.Coords, EltTy.bits .f32 = 32 ∨ (Rect.block (s := S16x16) S16x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3000x16.size a ≤ S300000x16.size a
  hwx0_6 : ∀ i : grid0.Coords, EltTy.bits .f32 = 32 ∨ (Rect.block (s := S300000x16) S3000x16.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x16.size a ≤ S300000x16.size a
  hwx1_0 : ∀ i : grid1.Coords, EltTy.bits .f32 = 32 ∨ (Rect.block (s := S300000x16) S3000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3000x16.size a ≤ S300000x16.size a
  hwx1_1 : ∀ i : grid1.Coords, EltTy.bits .f32 = 32 ∨ (Rect.block (s := S300000x16) S3000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3000x1.size a ≤ S300000x1.size a
  hwx1_2 : ∀ i : grid1.Coords, EltTy.bits .f32 = 32 ∨ (Rect.block (s := S300000x1) S3000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x16.size a ≤ S16x16.size a
  hwx1_5 : ∀ i : grid1.Coords, EltTy.bits .f32 = 32 ∨ (Rect.block (s := S16x16) S16x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S3000x16.size a ≤ S300000x16.size a
  hwx1_6 : ∀ i : grid1.Coords, EltTy.bits .f32 = 32 ∨ (Rect.block (s := S300000x16) S3000x16.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x16.size a ≤ S300000x16.size a
  hwx2_0 : ∀ i : grid2.Coords, EltTy.bits .f32 = 32 ∨ (Rect.block (s := S300000x16) S3000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3000x16.size a ≤ S300000x16.size a
  hwx2_1 : ∀ i : grid2.Coords, EltTy.bits .f32 = 32 ∨ (Rect.block (s := S300000x16) S3000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3000x1.size a ≤ S300000x1.size a
  hwx2_2 : ∀ i : grid2.Coords, EltTy.bits .f32 = 32 ∨ (Rect.block (s := S300000x1) S3000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x16.size a ≤ S16x16.size a
  hwx2_3 : ∀ i : grid2.Coords, EltTy.bits .f32 = 32 ∨ (Rect.block (s := S16x16) S16x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x16.size a ≤ S16x16.size a
  hwx2_5 : ∀ i : grid2.Coords, EltTy.bits .f32 = 32 ∨ (Rect.block (s := S16x16) S16x16.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S3000x16.size a ≤ S300000x16.size a
  hwx2_6 : ∀ i : grid2.Coords, EltTy.bits .f32 = 32 ∨ (Rect.block (s := S300000x16) S3000x16.size (cc2_transform_6 i) (hinb2_6 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1000x16.size a ≤ S1000x16.size a
  hwx3_0 : ∀ i : grid3.Coords, EltTy.bits .f32 = 32 ∨ (Rect.block (s := S1000x16) S1000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1000x1.size a ≤ S1000x1.size a
  hwx3_1 : ∀ i : grid3.Coords, EltTy.bits .f32 = 32 ∨ (Rect.block (s := S1000x1) S1000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16x1.size a ≤ S16x1.size a
  hwx3_2 : ∀ i : grid3.Coords, EltTy.bits .f32 = 32 ∨ (Rect.block (s := S16x1) S16x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1000x1.size a ≤ S1000x1.size a
  hwx3_4 : ∀ i : grid3.Coords, EltTy.bits .f32 = 32 ∨ (Rect.block (s := S1000x1) S1000x1.size (cc3_transform_4 i) (hinb3_4 i)).WholeWords (EltTy.packing .f32)

variable [Facts₀]

def scatter_S300000_S4800000x1_S4800000_n_0_0_1 : ScatterDims S300000 S4800000x1 S4800000 where
  updateWindowDims := []
  insertedWindowDims := [0]
  scatterDimsToOperandDims := [0]
  indexVectorDim := 1
  wf := scatter_S300000_S4800000x1_S4800000_n_0_0_1_wf
def gather_S300000x16_S4800000x1_S4800000x16_1_0_n_n_0_1_116 : GatherDims S300000x16 S4800000x1 S4800000x16 where
  offsetDims := [1]
  collapsedSliceDims := [0]
  operandBatchingDims := []
  startIndicesBatchingDims := []
  startIndexMap := [0]
  indexVectorDim := 1
  sliceSizes := ![1, 16]
  wf := gather_S300000x16_S4800000x1_S4800000x16_1_0_n_n_0_1_116_wf
def scatter_S300000x16_S4800000x1_S4800000x16_1_0_0_1 : ScatterDims S300000x16 S4800000x1 S4800000x16 where
  updateWindowDims := [1]
  insertedWindowDims := [0]
  scatterDimsToOperandDims := [0]
  indexVectorDim := 1
  wf := scatter_S300000x16_S4800000x1_S4800000x16_1_0_0_1_wf
def dot_S3000x16_S16x16_S3000x16_1_0_0_1_n_n : DotDims S3000x16 S16x16 S3000x16 where
  lhsContracting := [1]
  rhsContracting := [0]
  lhsNonContracting := [0]
  rhsNonContracting := [1]
  lhsBatch := []
  rhsBatch := []
  wf := dot_S3000x16_S16x16_S3000x16_1_0_0_1_n_n_wf
def scatter_S1000x16_S300000x1_S300000x16_1_0_0_1 : ScatterDims S1000x16 S300000x1 S300000x16 where
  updateWindowDims := [1]
  insertedWindowDims := [0]
  scatterDimsToOperandDims := [0]
  indexVectorDim := 1
  wf := scatter_S1000x16_S300000x1_S300000x16_1_0_0_1_wf
def scatter_S1000_S300000x1_S300000_n_0_0_1 : ScatterDims S1000 S300000x1 S300000 where
  updateWindowDims := []
  insertedWindowDims := [0]
  scatterDimsToOperandDims := [0]
  indexVectorDim := 1
  wf := scatter_S1000_S300000x1_S300000_n_0_0_1_wf
def dot_S1000x16_S16x1_S1000x1_1_0_0_1_n_n : DotDims S1000x16 S16x1 S1000x1 where
  lhsContracting := [1]
  rhsContracting := [0]
  lhsNonContracting := [0]
  rhsNonContracting := [1]
  lhsBatch := []
  rhsBatch := []
  wf := dot_S1000x16_S16x1_S1000x1_1_0_0_1_n_n_wf

abbrev win0_0 : Pipeline.Window sig grid0 :=
  Pipeline.Window.ofSpec (Memref.whole main_v22) S3000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S3000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S3000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S16x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S3000x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v40) S3000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S3000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S3000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S16x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48) S3000x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v58) S3000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S3000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S3000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v60) S16x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S16x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S3000x16.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v70) S1000x16.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1000x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S16x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S1000x1.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S300000x16 : Shape := ⟨2, ![300000, 16]⟩
abbrev S2x4800000 : Shape := ⟨2, ![2, 4800000]⟩
abbrev S300000 : Shape := ⟨1, ![300000]⟩
abbrev S3x16x16 : Shape := ⟨3, ![3, 16, 16]⟩
abbrev S3x16 : Shape := ⟨2, ![3, 16]⟩
abbrev S16x1 : Shape := ⟨2, ![16, 1]⟩
abbrev S1 : Shape := ⟨1, ![1]⟩
abbrev S1x4800000 : Shape := ⟨2, ![1, 4800000]⟩
abbrev S4800000 : Shape := ⟨1, ![4800000]⟩
abbrev S_ : Shape := ⟨0, ![]⟩
abbrev S4800000x1 : Shape := ⟨2, ![4800000, 1]⟩
abbrev S300000x1 : Shape := ⟨2, ![300000, 1]⟩
abbrev S4800000x16 : Shape := ⟨2, ![4800000, 16]⟩
abbrev S1x16x16 : Shape := ⟨3, ![1, 16, 16]⟩
abbrev S16x16 : Shape := ⟨2, ![16, 16]⟩
abbrev S1x16 : Shape := ⟨2, ![1, 16]⟩
abbrev S16 : Shape := ⟨1, ![16]⟩
abbrev S1000x16 : Shape := ⟨2, ![1000, 16]⟩
abbrev S1000 : Shape := ⟨1, ![1000]⟩
abbrev S1000x1 : Shape := ⟨2, ![1000, 1]⟩
abbrev S1x1 : Shape := ⟨2, ![1, 1]⟩

abbrev nBuf : Space → Nat
  | .hbm => 132
  | .vmem => 0
  | .smem => 0
  | _ => 0

abbrev hbmTy0_0 (i : Nat) : BufTy := match i % 128 with
  | 0 => ⟨S300000x16, .f32⟩
  | 1 => ⟨S2x4800000, .i32⟩
  | 2 => ⟨S300000, .i32⟩
  | 3 => ⟨S3x16x16, .f32⟩
  | 4 => ⟨S3x16, .f32⟩
  | 5 => ⟨S3x16x16, .f32⟩
  | 6 => ⟨S16x1, .f32⟩
  | 7 => ⟨S1, .f32⟩
  | 8 => ⟨S1x4800000, .i32⟩
  | 9 => ⟨S4800000, .i32⟩
  | 10 => ⟨S1x4800000, .i32⟩
  | 11 => ⟨S4800000, .i32⟩
  | 12 => ⟨S_, .f32⟩
  | 13 => ⟨S4800000, .f32⟩
  | 14 => ⟨S_, .f32⟩
  | 15 => ⟨S300000, .f32⟩
  | 16 => ⟨S4800000x1, .i32⟩
  | 17 => ⟨S300000, .f32⟩
  | 18 => ⟨S_, .f32⟩
  | 19 => ⟨S300000, .f32⟩
  | 20 => ⟨S300000, .f32⟩
  | 21 => ⟨S_, .f32⟩
  | 22 => ⟨S300000, .f32⟩
  | 23 => ⟨S300000, .f32⟩
  | 24 => ⟨S300000x1, .f32⟩
  | 25 => ⟨S_, .i32⟩
  | 26 => ⟨S4800000, .i32⟩
  | 27 => ⟨S4800000, .i1⟩
  | 28 => ⟨S_, .i32⟩
  | 29 => ⟨S4800000, .i32⟩
  | 30 => ⟨S4800000, .i32⟩
  | 31 => ⟨S4800000, .i32⟩
  | 32 => ⟨S4800000x1, .i32⟩
  | 33 => ⟨S4800000x16, .f32⟩
  | 34 => ⟨S_, .f32⟩
  | 35 => ⟨S300000x16, .f32⟩
  | 36 => ⟨S4800000x1, .i32⟩
  | 37 => ⟨S300000x16, .f32⟩
  | 38 => ⟨S300000x16, .f32⟩
  | 39 => ⟨S300000x16, .f32⟩
  | 40 => ⟨S1x16x16, .f32⟩
  | 41 => ⟨S16x16, .f32⟩
  | 42 => ⟨S300000x16, .f32⟩
  | 43 => ⟨S1x16, .f32⟩
  | 44 => ⟨S16, .f32⟩
  | 45 => ⟨S1x16, .f32⟩
  | 46 => ⟨S300000x16, .f32⟩
  | 47 => ⟨S300000x16, .f32⟩
  | 48 => ⟨S1x16x16, .f32⟩
  | 49 => ⟨S16x16, .f32⟩
  | 50 => ⟨S300000x16, .f32⟩
  | 51 => ⟨S300000x16, .f32⟩
  | 52 => ⟨S_, .f32⟩
  | 53 => ⟨S300000x16, .f32⟩
  | 54 => ⟨S300000x16, .f32⟩
  | 55 => ⟨S_, .i32⟩
  | 56 => ⟨S4800000, .i32⟩
  | 57 => ⟨S4800000, .i1⟩
  | 58 => ⟨S_, .i32⟩
  | 59 => ⟨S4800000, .i32⟩
  | 60 => ⟨S4800000, .i32⟩
  | 61 => ⟨S4800000, .i32⟩
  | 62 => ⟨S4800000x1, .i32⟩
  | 63 => ⟨S4800000x16, .f32⟩
  | 64 => ⟨S_, .f32⟩
  | 65 => ⟨S300000x16, .f32⟩
  | 66 => ⟨S4800000x1, .i32⟩
  | 67 => ⟨S300000x16, .f32⟩
  | 68 => ⟨S300000x16, .f32⟩
  | 69 => ⟨S300000x16, .f32⟩
  | 70 => ⟨S1x16x16, .f32⟩
  | 71 => ⟨S16x16, .f32⟩
  | 72 => ⟨S300000x16, .f32⟩
  | 73 => ⟨S1x16, .f32⟩
  | 74 => ⟨S16, .f32⟩
  | 75 => ⟨S1x16, .f32⟩
  | 76 => ⟨S300000x16, .f32⟩
  | 77 => ⟨S300000x16, .f32⟩
  | 78 => ⟨S1x16x16, .f32⟩
  | 79 => ⟨S16x16, .f32⟩
  | 80 => ⟨S300000x16, .f32⟩
  | 81 => ⟨S300000x16, .f32⟩
  | 82 => ⟨S_, .f32⟩
  | 83 => ⟨S300000x16, .f32⟩
  | 84 => ⟨S300000x16, .f32⟩
  | 85 => ⟨S_, .i32⟩
  | 86 => ⟨S4800000, .i32⟩
  | 87 => ⟨S4800000, .i1⟩
  | 88 => ⟨S_, .i32⟩
  | 89 => ⟨S4800000, .i32⟩
  | 90 => ⟨S4800000, .i32⟩
  | 91 => ⟨S4800000, .i32⟩
  | 92 => ⟨S4800000x1, .i32⟩
  | 93 => ⟨S4800000x16, .f32⟩
  | 94 => ⟨S_, .f32⟩
  | 95 => ⟨S300000x16, .f32⟩
  | 96 => ⟨S4800000x1, .i32⟩
  | 97 => ⟨S300000x16, .f32⟩
  | 98 => ⟨S300000x16, .f32⟩
  | 99 => ⟨S300000x16, .f32⟩
  | 100 => ⟨S1x16x16, .f32⟩
  | 101 => ⟨S16x16, .f32⟩
  | 102 => ⟨S300000x16, .f32⟩
  | 103 => ⟨S1x16, .f32⟩
  | 104 => ⟨S16, .f32⟩
  | 105 => ⟨S1x16, .f32⟩
  | 106 => ⟨S300000x16, .f32⟩
  | 107 => ⟨S300000x16, .f32⟩
  | 108 => ⟨S1x16x16, .f32⟩
  | 109 => ⟨S16x16, .f32⟩
  | 110 => ⟨S300000x16, .f32⟩
  | 111 => ⟨S300000x16, .f32⟩
  | 112 => ⟨S_, .f32⟩
  | 113 => ⟨S1000x16, .f32⟩
  | 114 => ⟨S300000x1, .i32⟩
  | 115 => ⟨S1000x16, .f32⟩
  | 116 => ⟨S_, .f32⟩
  | 117 => ⟨S300000, .f32⟩
  | 118 => ⟨S_, .f32⟩
  | 119 => ⟨S1000, .f32⟩
  | 120 => ⟨S300000x1, .i32⟩
  | 121 => ⟨S1000, .f32⟩
  | 122 => ⟨S_, .f32⟩
  | 123 => ⟨S1000, .f32⟩
  | 124 => ⟨S1000, .f32⟩
  | 125 => ⟨S1000x1, .f32⟩
  | 126 => ⟨S1000x16, .f32⟩
  | 127 => ⟨S1000x16, .f32⟩
  | _ => ⟨S300000x16, .f32⟩

abbrev hbmTy0_1 (i : Nat) : BufTy := match i % 128 with
  | 0 => ⟨S1000x1, .f32⟩
  | 1 => ⟨S1x1, .f32⟩
  | 2 => ⟨S1000x1, .f32⟩
  | 3 => ⟨S1000x1, .f32⟩
  | _ => ⟨S300000x16, .f32⟩

abbrev hbmTy (i : Nat) : BufTy := match i / 128 with
  | 0 => hbmTy0_0 i
  | 1 => hbmTy0_1 i
  | _ => ⟨S300000x16, .f32⟩

abbrev bufTy : (tb : Table) → Fin (tcTables nBuf tb) → BufTy
  | .hbm, ⟨i, _⟩ => hbmTy i
  | _, _ => ⟨S300000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call0_cst : Ref sig .tc := ⟨.hbm, 52, rfl⟩
abbrev main_call0_v0 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_c_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_call1_cst : Ref sig .tc := ⟨.hbm, 82, rfl⟩
abbrev main_call1_v0 : Ref sig .tc := ⟨.hbm, 83, rfl⟩
abbrev main_v62 : Ref sig .tc := ⟨.hbm, 84, rfl⟩
abbrev main_c_8 : Ref sig .tc := ⟨.hbm, 85, rfl⟩
abbrev main_v63 : Ref sig .tc := ⟨.hbm, 86, rfl⟩
abbrev main_v64 : Ref sig .tc := ⟨.hbm, 87, rfl⟩
abbrev main_c_9 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_10 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_11 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_12 : Ref sig .tc := ⟨.hbm, 116, rfl⟩
abbrev main_v90 : Ref sig .tc := ⟨.hbm, 117, rfl⟩
abbrev main_cst_13 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_14 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩

abbrev nD : Nat := 1
abbrev τ : Topo := Topo.v7x

variable {F : FTy → Type} [FloatOps F]

class Facts₀ : Prop where
  slices_S2x4800000_S1x4800000_0_0 : S2x4800000.Slices ![0, 0] S1x4800000
  shapeCasts_S1x4800000_S4800000 : S1x4800000.ShapeCasts S4800000
  slices_S2x4800000_S1x4800000_1_0 : S2x4800000.Slices ![1, 0] S1x4800000
  bcast_S_S4800000 : S_.BroadcastsInDim S4800000 (![] : Fin 0 → Fin S4800000.rank)
  bcast_S_S300000 : S_.BroadcastsInDim S300000 (![] : Fin 0 → Fin S300000.rank)
  bcast_S4800000_S4800000x1_0 : S4800000.BroadcastsInDim S4800000x1 (![0] : Fin 1 → Fin S4800000x1.rank)
  bcast_S300000_S300000x1_0 : S300000.BroadcastsInDim S300000x1 (![0] : Fin 1 → Fin S300000x1.rank)
  bcast_S_S300000x16 : S_.BroadcastsInDim S300000x16 (![] : Fin 0 → Fin S300000x16.rank)
  bcast_S300000x1_S300000x16_0_1 : S300000x1.BroadcastsInDim S300000x16 (![0, 1] : Fin 2 → Fin S300000x16.rank)
  slices_S3x16x16_S1x16x16_0_0_0 : S3x16x16.Slices ![0, 0, 0] S1x16x16
  shapeCasts_S1x16x16_S16x16 : S1x16x16.ShapeCasts S16x16
  slices_S3x16_S1x16_0_0 : S3x16.Slices ![0, 0] S1x16
  shapeCasts_S1x16_S16 : S1x16.ShapeCasts S16
  bcast_S16_S1x16_1 : S16.BroadcastsInDim S1x16 (![1] : Fin 1 → Fin S1x16.rank)
  bcast_S1x16_S300000x16_0_1 : S1x16.BroadcastsInDim S300000x16 (![0, 1] : Fin 2 → Fin S300000x16.rank)
  slices_S3x16x16_S1x16x16_1_0_0 : S3x16x16.Slices ![1, 0, 0] S1x16x16
  slices_S3x16_S1x16_1_0 : S3x16.Slices ![1, 0] S1x16
  slices_S3x16x16_S1x16x16_2_0_0 : S3x16x16.Slices ![2, 0, 0] S1x16x16
  slices_S3x16_S1x16_2_0 : S3x16.Slices ![2, 0] S1x16
  bcast_S_S1000x16 : S_.BroadcastsInDim S1000x16 (![] : Fin 0 → Fin S1000x16.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x16_0_1 : S1000x1.BroadcastsInDim S1000x16 (![0, 1] : Fin 2 → Fin S1000x16.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  scatter_S300000_S4800000x1_S4800000_n_0_0_1_wf : ScatterDims.WF S300000 S4800000x1 S4800000 [] [0] [0] 1
  gather_S300000x16_S4800000x1_S4800000x16_1_0_n_n_0_1_116_wf : GatherDims.WF S300000x16 S4800000x1 S4800000x16 [1] [0] [] [0] [] 1 ![1, 16]
  scatter_S300000x16_S4800000x1_S4800000x16_1_0_0_1_wf : ScatterDims.WF S300000x16 S4800000x1 S4800000x16 [1] [0] [0] 1
  dot_S300000x16_S16x16_S300000x16_1_0_0_1_n_n_wf : DotDims.WF S300000x16 S16x16 S300000x16 [1] [0] [0] [1] [] []
  scatter_S1000x16_S300000x1_S300000x16_1_0_0_1_wf : ScatterDims.WF S1000x16 S300000x1 S300000x16 [1] [0] [0] 1
  scatter_S1000_S300000x1_S300000_n_0_0_1_wf : ScatterDims.WF S1000 S300000x1 S300000 [] [0] [0] 1
  dot_S1000x16_S16x1_S1000x1_1_0_0_1_n_n_wf : DotDims.WF S1000x16 S16x1 S1000x1 [1] [0] [0] [1] [] []

variable [Facts₀]

def scatter_S300000_S4800000x1_S4800000_n_0_0_1 : ScatterDims S300000 S4800000x1 S4800000 where
  updateWindowDims := []
  insertedWindowDims := [0]
  scatterDimsToOperandDims := [0]
  indexVectorDim := 1
  wf := scatter_S300000_S4800000x1_S4800000_n_0_0_1_wf
def gather_S300000x16_S4800000x1_S4800000x16_1_0_n_n_0_1_116 : GatherDims S300000x16 S4800000x1 S4800000x16 where
  offsetDims := [1]
  collapsedSliceDims := [0]
  operandBatchingDims := []
  startIndicesBatchingDims := []
  startIndexMap := [0]
  indexVectorDim := 1
  sliceSizes := ![1, 16]
  wf := gather_S300000x16_S4800000x1_S4800000x16_1_0_n_n_0_1_116_wf
def scatter_S300000x16_S4800000x1_S4800000x16_1_0_0_1 : ScatterDims S300000x16 S4800000x1 S4800000x16 where
  updateWindowDims := [1]
  insertedWindowDims := [0]
  scatterDimsToOperandDims := [0]
  indexVectorDim := 1
  wf := scatter_S300000x16_S4800000x1_S4800000x16_1_0_0_1_wf
def dot_S300000x16_S16x16_S300000x16_1_0_0_1_n_n : DotDims S300000x16 S16x16 S300000x16 where
  lhsContracting := [1]
  rhsContracting := [0]
  lhsNonContracting := [0]
  rhsNonContracting := [1]
  lhsBatch := []
  rhsBatch := []
  wf := dot_S300000x16_S16x16_S300000x16_1_0_0_1_n_n_wf
def scatter_S1000x16_S300000x1_S300000x16_1_0_0_1 : ScatterDims S1000x16 S300000x1 S300000x16 where
  updateWindowDims := [1]
  insertedWindowDims := [0]
  scatterDimsToOperandDims := [0]
  indexVectorDim := 1
  wf := scatter_S1000x16_S300000x1_S300000x16_1_0_0_1_wf
def scatter_S1000_S300000x1_S300000_n_0_0_1 : ScatterDims S1000 S300000x1 S300000 where
  updateWindowDims := []
  insertedWindowDims := [0]
  scatterDimsToOperandDims := [0]
  indexVectorDim := 1
  wf := scatter_S1000_S300000x1_S300000_n_0_0_1_wf
def dot_S1000x16_S16x1_S1000x1_1_0_0_1_n_n : DotDims S1000x16 S16x1 S1000x1 where
  lhsContracting := [1]
  rhsContracting := [0]
  lhsNonContracting := [0]
  rhsNonContracting := [1]
  lhsBatch := []
  rhsBatch := []
  wf := dot_S1000x16_S16x1_S1000x1_1_0_0_1_n_n_wf

class Facts : Prop extends Facts₀ where

variable [Facts]
-- ==== Proof.KernelRun.lean ====
/-
  The idealized kernel's run, with the final contents of every buffer named.

  The program is four kernel regions among stretches of host operations.  The generated frame module folds the buffer
  contents through them, from the launch memory to the return (`Gen.W8`), and proves that every weakly fair execution
  terminates without a fault; here the same run is stated with its strongest conclusion: at the end every buffer
  that outlives the regions holds what that fold says.  The arguments' and the result's contents both follow from it.
-/
import proofs.«150990_j15101105013418_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and at the end each buffer that is not
    scoped to a region holds the last stage of the fold of buffer contents through the host stretches and regions. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- What the run leaves in one buffer that is not scoped to a region. -/
theorem run_at (b : Ref sig .tc) (hb : ¬ (Proc.devRef .tc b : DevRef τ sig).isScoped)
    (r : PUnit × MemSt nD τ sig (Elt F))
    (h : ∀ c : Dev nD, ∀ b ∈ Pipeline.ucRefs τ sig, r.2.mem (((c : Thread nD τ)).1, b) = W8 m ρ c b) (c : Dev nD) :
    r.2.mem ((c : Thread nD τ).loc b) = W8 m ρ c (Proc.devRef .tc b) :=
  h c _ (mem_uc b hb)

end Cert.KernelIdeal.Whole

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.NodeRow.lean ====
/-
  One node's update in a mean-aggregation graph layer, and one graph's pooled score, on the extended reals.

  A layer maps the summed neighbour features `agg`, the node features `h` and the inverse in-degree column `inv`
  to, at node r and feature c,
      ( Σₖ (agg (r,k) · inv (r,0)) · Wl (k,c)  +  Σₖ h (r,k) · Wr (k,c) )  +  b (0,c),
  followed, in all but the last layer, by the maximum with zero.  The entry at node r reads row r of `agg`, of `h`
  and of `inv` only, so the layer of a block of consecutive rows is that block of the layer of the whole arrays:
  this is what lets a row-tiled computation be compared with the untiled one.  The number of rows is a variable.
-/
import proofs.«150990_j15101105013418_2_alg».proof.Proof.LibPlainDot

noncomputable section

namespace Cert.GraphNet

open Idealize.ShloMosaic Idealize.ShloMosaic.ValueIdx Cert.Lib.PlainDot
open scoped BigOperators

variable {R R' C : Nat}

/-- The column entry (r, 0) that goes with a matrix entry (r, k). -/
abbrev colOf (i : (⟨2, ![R, C]⟩ : Shape).Idx) : (⟨2, ![R, 1]⟩ : Shape).Idx := ix2 (i 0) (0 : Fin 1)
/-- The row-vector entry (0, c) that goes with a matrix entry (r, c). -/
abbrev rowOf (i : (⟨2, ![R, C]⟩ : Shape).Idx) : (⟨2, ![1, C]⟩ : Shape).Idx := ix2 (0 : Fin 1) (i 1)

/-- Every row of a matrix scaled by that row's entry of a column. -/
def scaled (x : (⟨2, ![R, C]⟩ : Shape).Idx → EReal) (s : (⟨2, ![R, 1]⟩ : Shape).Idx → EReal) :
    (⟨2, ![R, C]⟩ : Shape).Idx → EReal := fun i => x i * s (colOf i)

/-- A layer before its activation. -/
def layerLin (agg h : (⟨2, ![R, 16]⟩ : Shape).Idx → EReal) (inv : (⟨2, ![R, 1]⟩ : Shape).Idx → EReal)
    (Wl Wr : (⟨2, ![16, 16]⟩ : Shape).Idx → EReal) (b : (⟨2, ![1, 16]⟩ : Shape).Idx → EReal) :
    (⟨2, ![R, 16]⟩ : Shape).Idx → EReal :=
  fun j => (mm (scaled agg inv) Wl j + mm h Wr j) + b (rowOf j)

/-- A layer with its activation: the maximum with `z` (zero in the programs; the proofs never need its value). -/
def layerAct (z : EReal) (agg h : (⟨2, ![R, 16]⟩ : Shape).Idx → EReal) (inv : (⟨2, ![R, 1]⟩ : Shape).Idx → EReal)
    (Wl Wr : (⟨2, ![16, 16]⟩ : Shape).Idx → EReal) (b : (⟨2, ![1, 16]⟩ : Shape).Idx → EReal) :
    (⟨2, ![R, 16]⟩ : Shape).Idx → EReal :=
  fun j => max (layerLin agg h inv Wl Wr b j) z

/-- The pooled head: each graph's feature sums divided by its node count raised to at least `one`, contracted with
    the output weights, plus the output bias. -/
def poolHead (one : EReal) (gsum : (⟨2, ![R, 16]⟩ : Shape).Idx → EReal) (gcnt : (⟨2, ![R, 1]⟩ : Shape).Idx → EReal)
    (w : (⟨2, ![16, 1]⟩ : Shape).Idx → EReal) (b : (⟨2, ![1, 1]⟩ : Shape).Idx → EReal) :
    (⟨2, ![R, 1]⟩ : Shape).Idx → EReal :=
  fun j => mm (fun i => Ideal.div (gsum i) (max (gcnt (colOf i)) one)) w j + b (rowOf j)

/-- Rows o, o+1, …, o+R-1 of an array of R' rows, as an index map. -/
def shift (o : Nat) (h : o + R ≤ R') (y : (⟨2, ![R, C]⟩ : Shape).Idx) : (⟨2, ![R', C]⟩ : Shape).Idx :=
  ix2 ⟨o + (y 0).val, by have := idx2_lt0 y; omega⟩ (y 1)

theorem shift_val0 (o : Nat) (h : o + R ≤ R') (y : (⟨2, ![R, C]⟩ : Shape).Idx) : ((shift o h y) 0).val = o + (y 0).val := rfl
theorem shift_val1 (o : Nat) (h : o + R ≤ R') (y : (⟨2, ![R, C]⟩ : Shape).Idx) : ((shift o h y) 1).val = (y 1).val := rfl

/-- A layer is computed row by row: on a block of consecutive rows it is that block of the layer of the whole arrays. -/
theorem layerLin_rows (o : Nat) (h : o + R ≤ R') (A H : (⟨2, ![R', 16]⟩ : Shape).Idx → EReal)
    (INV : (⟨2, ![R', 1]⟩ : Shape).Idx → EReal) (Wl Wr : (⟨2, ![16, 16]⟩ : Shape).Idx → EReal)
    (b : (⟨2, ![1, 16]⟩ : Shape).Idx → EReal) (y : (⟨2, ![R, 16]⟩ : Shape).Idx) :
    layerLin (fun i => A (shift o h i)) (fun i => H (shift o h i)) (fun i => INV (shift o h i)) Wl Wr b y
      = layerLin A H INV Wl Wr b (shift o h y) := by
  unfold layerLin mm scaled
  have e1 : ∀ k : Fin 16, shift o h (rowIdx y k) = rowIdx (shift o h y) k := fun k =>
    funext fun a => Fin.ext (by match a with | ⟨0, _⟩ => rfl | ⟨1, _⟩ => rfl)
  have e2 : ∀ k : Fin 16, shift o h (colOf (rowIdx y k)) = colOf (rowIdx (shift o h y) k) := fun k =>
    funext fun a => Fin.ext (by match a with | ⟨0, _⟩ => rfl | ⟨1, _⟩ => rfl)
  have e3 : ∀ k : Fin 16, (colIdx y k : (⟨2, ![16, 16]⟩ : Shape).Idx) = colIdx (shift o h y) k := fun k =>
    funext fun a => Fin.ext (by match a with | ⟨0, _⟩ => rfl | ⟨1, _⟩ => rfl)
  have e4 : rowOf y = rowOf (shift o h y) :=
    funext fun a => Fin.ext (by match a with | ⟨0, _⟩ => rfl | ⟨1, _⟩ => rfl)
  simp only [e1, e2, e3, e4]

end Cert.GraphNet

end
-- ==== Proof.FoldBase.lean ====
/-
  The kernel's buffers, followed from the launch to the return.

  The program alternates stretches of host operations with four kernel regions, and the generated frame module folds
  the buffer contents through them.  This module names the eight argument arrays as launched, and records what every
  later stage still reads of the first stretch: the two rows of the edge list (sources and destinations), the inverse
  in-degree column, and the arguments the later stretches slice.  The reference program computes the same quantities
  with the same host operations, so they are stated through the reference's own stage functions.
-/
import proofs.«150990_j15101105013418_2_alg».proof.Proof.Gen.KernelIdeal.Frame
import proofs.«150990_j15101105013418_2_alg».proof.Proof.Gen.ReferenceIdeal.Read
import proofs.«150990_j15101105013418_2_alg».proof.Proof.NodeRow
import Idealize.ShloMosaic.Lib.StableHlo.Run

set_option maxRecDepth 16384

noncomputable section

namespace Cert.Bridge

open Idealize.ShloMosaic Idealize.ShloMosaic.TcCoe Idealize.SL.Sem Idealize.ShloMosaic.StableHlo
open Cert.KernelIdeal Cert.KernelIdeal.Gen
open Cert.ReferenceIdeal.Read Cert.GraphNet

variable (m : (ℓ : Loc nD τ sig) → Buf (Elt Ideal) ℓ) (ρ : Dev nD → PrngReg) (c : Dev nD)

/-- The argument arrays as launched on device `c`: node features, edge list, graph of each node, the two stacks of
    weight matrices and the stack of biases, the output weights and the output bias. -/
abbrev L0 := m ((c : Thread nD τ).loc main_arg0)
abbrev L1 := m ((c : Thread nD τ).loc main_arg1)
abbrev L2 := m ((c : Thread nD τ).loc main_arg2)
abbrev L3 := m ((c : Thread nD τ).loc main_arg3)
abbrev L4 := m ((c : Thread nD τ).loc main_arg4)
abbrev L5 := m ((c : Thread nD τ).loc main_arg5)
abbrev L6 := m ((c : Thread nD τ).loc main_arg6)
abbrev L7 := m ((c : Thread nD τ).loc main_arg7)

/-- A valuation of the buffers still holds what the later stages read: the edge sources and destinations, the
    inverse in-degree as a column, and the arguments other than the node features as launched. -/
structure Kept (W : Valuation τ sig (Elt Ideal)) : Prop where
  src : W (Proc.devRef .tc main_v1) = val_main_v1 (F := Ideal) (L1 m c)
  dst : W (Proc.devRef .tc main_v3) = val_main_v3 (F := Ideal) (L1 m c)
  inv : W (Proc.devRef .tc main_v12) = shapeCast S300000x1 (val_main_v11 (F := Ideal) (L1 m c)) shapeCasts_S300000_S300000x1
  a2 : W (Proc.devRef .tc main_arg2) = L2 m c
  a3 : W (Proc.devRef .tc main_arg3) = L3 m c
  a4 : W (Proc.devRef .tc main_arg4) = L4 m c
  a5 : W (Proc.devRef .tc main_arg5) = L5 m c
  a6 : W (Proc.devRef .tc main_arg6) = L6 m c
  a7 : W (Proc.devRef .tc main_arg7) = L7 m c

end Cert.Bridge

end
-- ==== Proof.FoldKept1.lean ====
/-
  After the first stretch of host operations the buffers the later stages read hold the edge sources and
  destinations, the inverse in-degree column and the launch contents of the arguments: each is read off the stretch's
  operations, which are the reference's own first operations.
-/
import proofs.«150990_j15101105013418_2_alg».proof.Proof.FoldBase

set_option maxRecDepth 16384

noncomputable section

namespace Cert.Bridge

open Idealize.ShloMosaic Idealize.ShloMosaic.TcCoe Idealize.SL.Sem Idealize.ShloMosaic.StableHlo
open Cert.KernelIdeal Cert.KernelIdeal.Gen
open Cert.ReferenceIdeal.Read Cert.GraphNet

variable (m : (ℓ : Loc nD τ sig) → Buf (Elt Ideal) ℓ) (ρ : Dev nD → PrngReg) (c : Dev nD)

set_option maxHeartbeats 4000000 in
/-- The edge sources: row 0 of the edge list. -/
theorem src1 : W1 m ρ c (Proc.devRef .tc main_v1) = val_main_v1 (F := Ideal) (L1 m c) := by
  show StableHlo.after hostOps0 (W0 m ρ c) (Proc.devRef .tc main_v1) = _
  after_results
  first | done | rfl

set_option maxHeartbeats 4000000 in
/-- The edge destinations: row 1 of the edge list. -/
theorem dst1 : W1 m ρ c (Proc.devRef .tc main_v3) = val_main_v3 (F := Ideal) (L1 m c) := by
  show StableHlo.after hostOps0 (W0 m ρ c) (Proc.devRef .tc main_v3) = _
  after_results
  first | done | rfl

set_option maxHeartbeats 4000000 in
/-- One over the in-degree raised to at least one, as a column. -/
theorem inv1 : W1 m ρ c (Proc.devRef .tc main_v12) = shapeCast S300000x1 (val_main_v11 (F := Ideal) (L1 m c)) shapeCasts_S300000_S300000x1 := by
  show StableHlo.after hostOps0 (W0 m ρ c) (Proc.devRef .tc main_v12) = _
  after_results
  first | done | rfl

set_option maxHeartbeats 4000000 in
/-- The stretch writes no argument. -/
theorem arg2_1 : W1 m ρ c (Proc.devRef .tc main_arg2) = L2 m c := by
  show StableHlo.after hostOps0 (W0 m ρ c) (Proc.devRef .tc main_arg2) = _
  after_results
  first | done | rfl

set_option maxHeartbeats 4000000 in
/-- The stretch writes no argument. -/
theorem arg3_1 : W1 m ρ c (Proc.devRef .tc main_arg3) = L3 m c := by
  show StableHlo.after hostOps0 (W0 m ρ c) (Proc.devRef .tc main_arg3) = _
  after_results
  first | done | rfl

set_option maxHeartbeats 4000000 in
/-- The stretch writes no argument. -/
theorem arg4_1 : W1 m ρ c (Proc.devRef .tc main_arg4) = L4 m c := by
  show StableHlo.after hostOps0 (W0 m ρ c) (Proc.devRef .tc main_arg4) = _
  after_results
  first | done | rfl

set_option maxHeartbeats 4000000 in
/-- The stretch writes no argument. -/
theorem arg5_1 : W1 m ρ c (Proc.devRef .tc main_arg5) = L5 m c := by
  show StableHlo.after hostOps0 (W0 m ρ c) (Proc.devRef .tc main_arg5) = _
  after_results
  first | done | rfl

set_option maxHeartbeats 4000000 in
/-- The stretch writes no argument. -/
theorem arg6_1 : W1 m ρ c (Proc.devRef .tc main_arg6) = L6 m c := by
  show StableHlo.after hostOps0 (W0 m ρ c) (Proc.devRef .tc main_arg6) = _
  after_results
  first | done | rfl

set_option maxHeartbeats 4000000 in
/-- The stretch writes no argument. -/
theorem arg7_1 : W1 m ρ c (Proc.devRef .tc main_arg7) = L7 m c := by
  show StableHlo.after hostOps0 (W0 m ρ c) (Proc.devRef .tc main_arg7) = _
  after_results
  first | done | rfl

theorem kept1 : Kept m c (W1 m ρ c) :=
  ⟨src1 m ρ c, dst1 m ρ c, inv1 m ρ c, arg2_1 m ρ c, arg3_1 m ρ c, arg4_1 m ρ c, arg5_1 m ρ c, arg6_1 m ρ c, arg7_1 m ρ c⟩

end Cert.Bridge

end
-- ==== Proof.FoldOps0.lean ====
/-
  What the first stretch of host operations leaves for the first layer's region: the neighbour sums of the launched
  node features, the node features themselves, and the first weight matrices and bias row, each read off the
  stretch's operations and stated through the reference's stage functions.
-/
import proofs.«150990_j15101105013418_2_alg».proof.Proof.FoldBase

set_option maxRecDepth 16384

noncomputable section

namespace Cert.Bridge

open Idealize.ShloMosaic Idealize.ShloMosaic.TcCoe Idealize.SL.Sem Idealize.ShloMosaic.StableHlo
open Cert.KernelIdeal Cert.KernelIdeal.Gen
open Cert.ReferenceIdeal.Read Cert.GraphNet

variable (m : (ℓ : Loc nD τ sig) → Buf (Elt Ideal) ℓ) (ρ : Dev nD → PrngReg) (c : Dev nD)

set_option maxHeartbeats 4000000 in
/-- The launched node features gathered at the edge sources and summed at the edge destinations. -/
theorem agg1 : W1 m ρ c (Proc.devRef .tc main_v22) = val_main_v22 (F := Ideal) (L0 m c) (L1 m c) := by
  show StableHlo.after hostOps0 (W0 m ρ c) (Proc.devRef .tc main_v22) = _
  after_results
  first | done | rfl

set_option maxHeartbeats 4000000 in
/-- The stretch does not write the node features. -/
theorem feat1 : W1 m ρ c (Proc.devRef .tc main_arg0) = L0 m c := by
  show StableHlo.after hostOps0 (W0 m ρ c) (Proc.devRef .tc main_arg0) = _
  after_results
  first | done | rfl

set_option maxHeartbeats 4000000 in
/-- The first matrix of the neighbour weights. -/
theorem wl1 : W1 m ρ c (Proc.devRef .tc main_v24) = val_main_v26 (F := Ideal) (L3 m c) := by
  show StableHlo.after hostOps0 (W0 m ρ c) (Proc.devRef .tc main_v24) = _
  after_results
  first | done | rfl

set_option maxHeartbeats 4000000 in
/-- The first matrix of the self weights. -/
theorem wr1 : W1 m ρ c (Proc.devRef .tc main_v28) = val_main_v34 (F := Ideal) (L5 m c) := by
  show StableHlo.after hostOps0 (W0 m ρ c) (Proc.devRef .tc main_v28) = _
  after_results
  first | done | rfl

set_option maxHeartbeats 4000000 in
/-- The first bias, as a row. -/
theorem bias1 : W1 m ρ c (Proc.devRef .tc main_v29) = shapeCast S1x16 (val_main_v29 (F := Ideal) (L4 m c)) shapeCasts_S16_S1x16 := by
  show StableHlo.after hostOps0 (W0 m ρ c) (Proc.devRef .tc main_v29) = _
  after_results
  first | done | rfl

end Cert.Bridge

end
-- ==== Proof.LibRowLayout.lean ====
/-
  Layout operations of a row-blocked kernel read at an index given by coordinates: a column broadcast over a row,
  a vector turned into a column, one column cut out of a matrix, and the two lane reductions (sum, maximum) over the second axis of a matrix,
  read at row `r` as the sum, or the fold of `max`, over the row's entries. Stated over arbitrary extents.
-/
import Idealize.ShloMosaic.Lib.ValueLayout
import Idealize.ShloMosaic.PureOps.Ideal.Laws

noncomputable section

namespace Cert.KernelIdeal.MvnKernel

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column `o` of an `[a, b]` matrix, cut out as an `[a, 1]` column, reads at `(p, u)` the matrix at `(p, o)`. -/
theorem sliceCol_apply {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, Nat.lt_of_lt_of_le (Nat.lt_succ_self o) (h.2 1)⟩) :=
  slice2_axis1_apply o X h p u _ (by have := u.isLt; show o = o + u.val; omega)

variable {φ : FTy}

/-- The exponential of a vector, read at an index. -/
theorem exp_apply {s : Shape} (x : FVec Ideal s φ) (i : s.Idx) : exp x i = Ideal.exp (x i) := rfl

/-- The sum over the second axis of an `[a, b]` matrix, read at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (funext fun ax => Fin.ext (by
      match ax with
      | ⟨0, _⟩ => rfl
      | ⟨1, _⟩ => rfl)))

/-- The maximum over the second axis of an `[a, b]` matrix, read at row `r`: the fold of `max`, from the
    accumulator's value, over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f => (Finset.univ : Finset (Fin b)).fold max (Ideal.ofBits φ acc) f) (funext fun k =>
      congrArg src (funext fun ax => Fin.ext (by
        match ax with
        | ⟨0, _⟩ => rfl
        | ⟨1, _⟩ => rfl))))

end Cert.KernelIdeal.MvnKernel

end
-- ==== Proof.Layer0Block.lean ====
/-
  The first layer's kernel region: the array it leaves is the layer of the arrays it is given.

  The region runs over 100 grid points; point t is handed rows 3000·t … 3000·t + 2999 of the summed neighbour
  features, of the node features and of the inverse in-degree column, and the whole of the two weight matrices and
  of the bias row, and writes back rows 3000·t … 3000·t + 2999 of its result.  The body computes the layer of the
  block it is handed (two matrix products into zero accumulators, their sum, the bias added, the maximum with zero); a layer is
  computed row by row, so that is the same block of the layer of the whole arrays; and the 100 blocks tile the
  300000 rows.  All of it holds for whatever contents the region finds in its buffers.
-/
import proofs.«150990_j15101105013418_2_alg».proof.Proof.Gen.KernelIdeal.Frame
import proofs.«150990_j15101105013418_2_alg».proof.Proof.NodeRow
import proofs.«150990_j15101105013418_2_alg».proof.Proof.LibRowLayout
import Idealize.ShloMosaic.Lib.Pipeline.Value
import Idealize.ShloMosaic.Lib.ValueLayout

set_option maxRecDepth 16384

noncomputable section

namespace Cert.KernelIdeal.Layer0

open Idealize.ShloMosaic Idealize.ShloMosaic.TcCoe Idealize.ShloMosaic.ValueIdx Idealize.SL.Sem
open Idealize.ShloMosaic.Pipeline (Dat)
open Cert.KernelIdeal Cert.KernelIdeal.Gen Cert.GraphNet Cert.Lib.PlainDot Cert.KernelIdeal.MvnKernel

/-- The body's arithmetic, as one term of the blocks it loads, is the layer of those blocks. -/
theorem pay_eq (x0 x1 : Vec Ideal S3000x16 .f32) (x2 : Vec Ideal S3000x1 .f32) (x3 x5 : Vec Ideal S16x16 .f32)
    (x4 : Vec Ideal S1x16 .f32) :
    k0_pay1 (F := Ideal) x0 x2 x1 x3 x5 x4 = layerAct (FloatOps.ofBits (F := Ideal) .f32 0x00000000#32) x0 x1 x2 x3 x5 x4 := by
  funext j
  obtain ⟨p, q, rfl⟩ : ∃ (p : Fin 3000) (q : Fin 16), j = ix2 p q := ⟨j 0, j 1, eq_ix2 j⟩
  unfold k0_pay1 layerAct layerLin
  simp only [shapeCast_self]
  have hs : truncf (F := Ideal) .bf16 (mulf x0 (broadcastTo S3000x16 x2 broadcasts_S3000x1_S3000x16)) bitsLt_bf16_f32
      = scaled x0 x2 := funext fun i => by
    obtain ⟨a, k, rfl⟩ : ∃ (a : Fin 3000) (k : Fin 16), i = ix2 a k := ⟨i 0, i 1, eq_ix2 i⟩
    show x0 (ix2 a k) * broadcastTo S3000x16 x2 broadcasts_S3000x1_S3000x16 (ix2 a k) = x0 (ix2 a k) * x2 (colOf (ix2 a k))
    rw [broadcastTo_a1_ab_apply]
  show max ((FloatOps.matmul (F := Ideal) dot_S3000x16_S16x16_S3000x16_1_0_0_1_n_n none _ _ (constant (F := Ideal) S3000x16 .f32 0x00000000#32) (ix2 p q)
      + FloatOps.matmul (F := Ideal) dot_S3000x16_S16x16_S3000x16_1_0_0_1_n_n none _ _ (constant (F := Ideal) S3000x16 .f32 0x00000000#32) (ix2 p q))
      + broadcastTo S3000x16 x4 broadcasts_S1x16_S3000x16 (ix2 p q)) _ = _
  rw [matmul_zero_apply (R := 3000) (K := 16) (C := 16) dot_S3000x16_S16x16_S3000x16_1_0_0_1_n_n rfl,
    matmul_zero_apply (R := 3000) (K := 16) (C := 16) dot_S3000x16_S16x16_S3000x16_1_0_0_1_n_n rfl, broadcastTo_1b_ab_apply, hs]
  rfl

variable (V : (c : Dev nD) → (b : Ref sig .tc) → Buf (Elt Ideal) ((c : Thread nD τ).loc b))

theorem zero_offsets : (![0, 0] : Fin 2 → Nat) = fun _ => 0 := funext fun a => by fin_cases a <;> rfl

/-- The index maps of the seven windows, decided over the grid: the row-blocked windows are at block (t, 0), the
    weights and the bias at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem rows_le (t : Fin cfg0.N) : t.val * 3000 + 3000 ≤ 300000 := by
  have h := t.isLt
  have hN : grid0.N = 100 := N_0
  have h' : t.val < 100 := hN ▸ h
  omega

/-- Where the row-blocked windows' blocks sit in their arrays: rows 3000·t onwards. -/
theorem emb_rows16_0 (t : Fin cfg0.N) (y : S3000x16.Idx) :
    (((cfg0.win 0).blk t).view.emb y : S300000x16.Idx) = shift (t.val * 3000) (rows_le t) y := by
  obtain ⟨e00, e01, e10, e11, e20, e21, e30, e31, e40, e41, e50, e51, e60, e61⟩ := block_index t
  funext a; apply Fin.ext
  match a with
  | ⟨0, _⟩ => show win0_0.index t (0 : Fin 2) * 3000 + 1 * (y 0).val = t.val * 3000 + (y 0).val; omega
  | ⟨1, _⟩ => show win0_0.index t (1 : Fin 2) * 16 + 1 * (y 1).val = (y 1).val; omega
theorem emb_rows16_1 (t : Fin cfg0.N) (y : S3000x16.Idx) :
    (((cfg0.win 1).blk t).view.emb y : S300000x16.Idx) = shift (t.val * 3000) (rows_le t) y := by
  obtain ⟨e00, e01, e10, e11, e20, e21, e30, e31, e40, e41, e50, e51, e60, e61⟩ := block_index t
  funext a; apply Fin.ext
  match a with
  | ⟨0, _⟩ => show win0_1.index t (0 : Fin 2) * 3000 + 1 * (y 0).val = t.val * 3000 + (y 0).val; omega
  | ⟨1, _⟩ => show win0_1.index t (1 : Fin 2) * 16 + 1 * (y 1).val = (y 1).val; omega
theorem emb_rows16_6 (t : Fin cfg0.N) (y : S3000x16.Idx) :
    (((cfg0.win 6).blk t).view.emb y : S300000x16.Idx) = shift (t.val * 3000) (rows_le t) y := by
  obtain ⟨e00, e01, e10, e11, e20, e21, e30, e31, e40, e41, e50, e51, e60, e61⟩ := block_index t
  funext a; apply Fin.ext
  match a with
  | ⟨0, _⟩ => show win0_6.index t (0 : Fin 2) * 3000 + 1 * (y 0).val = t.val * 3000 + (y 0).val; omega
  | ⟨1, _⟩ => show win0_6.index t (1 : Fin 2) * 16 + 1 * (y 1).val = (y 1).val; omega
theorem emb_rows1 (t : Fin cfg0.N) (y : S3000x1.Idx) :
    (((cfg0.win 2).blk t).view.emb y : S300000x1.Idx) = shift (t.val * 3000) (rows_le t) y := by
  obtain ⟨e00, e01, e10, e11, e20, e21, e30, e31, e40, e41, e50, e51, e60, e61⟩ := block_index t
  funext a; apply Fin.ext
  match a with
  | ⟨0, _⟩ => show win0_2.index t (0 : Fin 2) * 3000 + 1 * (y 0).val = t.val * 3000 + (y 0).val; omega
  | ⟨1, _⟩ => show win0_2.index t (1 : Fin 2) * 1 + 1 * (y 1).val = (y 1).val; omega

/-- The weights' and the bias' blocks are their whole arrays. -/
theorem emb_w3 (t : Fin cfg0.N) (y : S16x16.Idx) : (((cfg0.win 3).blk t).view.emb y : S16x16.Idx) = y := by
  obtain ⟨e00, e01, e10, e11, e20, e21, e30, e31, e40, e41, e50, e51, e60, e61⟩ := block_index t
  funext a; apply Fin.ext
  match a with
  | ⟨0, _⟩ => show win0_3.index t (0 : Fin 2) * 16 + 1 * (y 0).val = (y 0).val; omega
  | ⟨1, _⟩ => show win0_3.index t (1 : Fin 2) * 16 + 1 * (y 1).val = (y 1).val; omega
theorem emb_w4 (t : Fin cfg0.N) (y : S1x16.Idx) : (((cfg0.win 4).blk t).view.emb y : S1x16.Idx) = y := by
  obtain ⟨e00, e01, e10, e11, e20, e21, e30, e31, e40, e41, e50, e51, e60, e61⟩ := block_index t
  funext a; apply Fin.ext
  match a with
  | ⟨0, _⟩ => show win0_4.index t (0 : Fin 2) * 1 + 1 * (y 0).val = (y 0).val; omega
  | ⟨1, _⟩ => show win0_4.index t (1 : Fin 2) * 16 + 1 * (y 1).val = (y 1).val; omega
theorem emb_w5 (t : Fin cfg0.N) (y : S16x16.Idx) : (((cfg0.win 5).blk t).view.emb y : S16x16.Idx) = y := by
  obtain ⟨e00, e01, e10, e11, e20, e21, e30, e31, e40, e41, e50, e51, e60, e61⟩ := block_index t
  funext a; apply Fin.ext
  match a with
  | ⟨0, _⟩ => show win0_5.index t (0 : Fin 2) * 16 + 1 * (y 0).val = (y 0).val; omega
  | ⟨1, _⟩ => show win0_5.index t (1 : Fin 2) * 16 + 1 * (y 1).val = (y 1).val; omega

/-- The blocks a point is handed, read off the arrays as the region finds them. -/
theorem blk0 (c : Dev nD) (t : Fin cfg0.N) : iblk0 V c 0 t = fun y => V c main_v22 (shift (t.val * 3000) (rows_le t) y) :=
  funext fun y => congrArg (V c main_v22) (emb_rows16_0 t y)
theorem blk1 (c : Dev nD) (t : Fin cfg0.N) : iblk0 V c 1 t = fun y => V c main_arg0 (shift (t.val * 3000) (rows_le t) y) :=
  funext fun y => congrArg (V c main_arg0) (emb_rows16_1 t y)
theorem blk2 (c : Dev nD) (t : Fin cfg0.N) : iblk0 V c 2 t = fun y => V c main_v12 (shift (t.val * 3000) (rows_le t) y) :=
  funext fun y => congrArg (V c main_v12) (emb_rows1 t y)
theorem blk3 (c : Dev nD) (t : Fin cfg0.N) : iblk0 V c 3 t = V c main_v24 :=
  funext fun y => congrArg (V c main_v24) (emb_w3 t y)
theorem blk4 (c : Dev nD) (t : Fin cfg0.N) : iblk0 V c 4 t = V c main_v29 :=
  funext fun y => congrArg (V c main_v29) (emb_w4 t y)
theorem blk5 (c : Dev nD) (t : Fin cfg0.N) : iblk0 V c 5 t = V c main_v28 :=
  funext fun y => congrArg (V c main_v28) (emb_w5 t y)

/-- What the layer region leaves in its result array, as a function of the arrays it finds. -/
abbrev result (c : Dev nD) : S300000x16.Idx → EReal :=
  layerAct (FloatOps.ofBits (F := Ideal) .f32 0x00000000#32) (V c main_v22) (V c main_arg0) (V c main_v12) (V c main_v24) (V c main_v28) (V c main_v29)

/-- Point t writes back rows 3000·t … 3000·t + 2999 of the layer of the whole arrays. -/
theorem flushed_eq (c : Dev nD) (t : Fin cfg0.N) :
    (dat0 V c).flushed 6 t = ((cfg0.win 6).blk t).view.read (Elt Ideal) (result V c) := by
  show (cfg0.win 6).cut (grid0.coords t) ((dat0 V c).after 6 t) = _
  rw [after0_6]
  unfold out0_6
  rw [View.canon_unit_zero zero_offsets]
  simp only [View.ld_unit_zero (S := S3000x16) zero_offsets, View.ld_unit_zero (S := S3000x1) zero_offsets,
    View.ld_unit_zero (S := S16x16) zero_offsets, View.ld_unit_zero (S := S1x16) zero_offsets]
  rw [pay_eq, blk0, blk1, blk2, blk3, blk4, blk5]
  funext y
  show layerAct (FloatOps.ofBits (F := Ideal) .f32 0x00000000#32) _ _ _ _ _ _ y = result V c (((cfg0.win 6).blk t).view.emb y)
  rw [emb_rows16_6 t y]
  show max (layerLin _ _ _ _ _ _ y) _ = max (layerLin _ _ _ _ _ _ (shift (t.val * 3000) (rows_le t) y)) _
  rw [layerLin_rows]

/-- A row of the result array belongs to the block of the point that its number divided by 3000 names. -/
theorem mem_block (t : Fin cfg0.N) (i : S300000x16.Idx) :
    i ∈ ((cfg0.win 6).blk t).view.set ↔ ∀ a : Fin 2, win0_6.index t a * S3000x16.size a ≤ (i a).val ∧ (i a).val < win0_6.index t a * S3000x16.size a + S3000x16.size a := by
  show i ∈ ((View.whole main_v30).slice (win0_6.rect t)).set ↔ _
  rw [View.set_slice_whole, Rect.mem_set_unit]
  exact Iff.rfl

theorem cover (i : S300000x16.Idx) :
    ∃ t : Fin cfg0.N, (cfg0.win 6).flush t = true ∧ i ∈ ((cfg0.win 6).blk t).view.set := by
  have hi0 : (i 0).val < 300000 := idx2_lt0 i
  have hi1 : (i 1).val < 16 := idx2_lt1 i
  have hN : grid0.N = 100 := N_0
  let t : Fin cfg0.N := ⟨(i 0).val / 3000, by show (i 0).val / 3000 < grid0.N; rw [hN]; omega⟩
  obtain ⟨e00, e01, e10, e11, e20, e21, e30, e31, e40, e41, e50, e51, e60, e61⟩ := block_index t
  have ht : t.val = (i 0).val / 3000 := rfl
  refine ⟨t, flush0_6 t, ?_⟩
  rw [mem_block]
  intro a
  match a with
  | ⟨0, _⟩ => show win0_6.index t (0 : Fin 2) * 3000 ≤ (i 0).val ∧ (i 0).val < win0_6.index t (0 : Fin 2) * 3000 + 3000; omega
  | ⟨1, _⟩ => show win0_6.index t (1 : Fin 2) * 16 ≤ (i 1).val ∧ (i 1).val < win0_6.index t (1 : Fin 2) * 16 + 16; omega

/-- The result array after the region. -/
theorem array_eq (c : Dev nD) : (dat0 V c).arrAt 6 cfg0.N = result V c :=
  (dat0 V c).arrAt_eq_of_cover 6 (result V c) (fun t _ => flushed_eq V c t) cover

end Cert.KernelIdeal.Layer0

end
-- ==== Proof.LibSpread.lean ====
/-
  A vector spread over a matrix in two steps, read at an index.

  One number per row, made an `[n, 1]` column by a broadcast along a new unit axis and then spread over `c` columns, reads
  at (r, k) the number of row r; one number per column, made a `[1, c]` row and then spread over `n` rows, reads at
  (r, k) the number of column k.  Each is the same as the vector cast (reshaped) to the column, or to the row, and read
  there: this is what joins a program that spreads with `broadcast_in_dim` to one that reshapes.  The extents are
  variables.
-/
import Idealize.ShloMosaic.Lib.Pipeline.Value
import Idealize.ShloMosaic.Lib.ValueLayout
import proofs.«150990_j15101105013418_2_alg».proof.Proof.LibRowLayout

noncomputable section

namespace Cert.Lib.Spread

open Idealize.ShloMosaic Idealize.ShloMosaic.ValueIdx Cert.KernelIdeal.MvnKernel

variable {α : Type} {n c : Nat}

/-- One number per row, made a column and then spread over the columns, reads at (r, k) the number of row r: the
    same as the vector cast to a column, read at (r, 0). -/
theorem spread_col (d : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, c]⟩ ![0, 1])
    (hc : (⟨1, ![n]⟩ : Shape).ShapeCasts ⟨2, ![n, 1]⟩) (i : (⟨2, ![n, c]⟩ : Shape).Idx) :
    broadcastInDim ⟨2, ![n, c]⟩ ![0, 1] h2 (broadcastInDim ⟨2, ![n, 1]⟩ ![0] h1 d) i
      = shapeCast ⟨2, ![n, 1]⟩ d hc (ix2 (i 0) (0 : Fin 1)) := by
  obtain ⟨a, k, rfl⟩ : ∃ (a : Fin n) (k : Fin c), i = ix2 a k := ⟨i 0, i 1, eq_ix2 i⟩
  rw [broadcastInDim_apply _ h2 _ (ix2 a k) (ix2 a (0 : Fin 1)) (fun ax => by
        match ax with
        | ⟨0, _⟩ => show a.val = if n = 1 then 0 else a.val; split; (have := a.isLt; omega); rfl
        | ⟨1, _⟩ => rfl),
      broadcastInDim_apply _ h1 _ (ix2 a (0 : Fin 1)) (ix1 a) (fun ax => by
        match ax with
        | ⟨0, _⟩ => show a.val = if n = 1 then 0 else a.val; split; (have := a.isLt; omega); rfl)]
  exact (shapeCast_a_a1_apply d hc a 0).symm

/-- One number per column, made a row and then spread over the rows, reads at (r, k) the number of column k: the
    same as the vector cast to a row, read at (0, k). -/
theorem spread_row (bv : (⟨1, ![c]⟩ : Shape).Idx → α)
    (h1 : (⟨1, ![c]⟩ : Shape).BroadcastsInDim ⟨2, ![1, c]⟩ ![1])
    (h2 : (⟨2, ![1, c]⟩ : Shape).BroadcastsInDim ⟨2, ![n, c]⟩ ![0, 1])
    (hb : (⟨1, ![c]⟩ : Shape).ShapeCasts ⟨2, ![1, c]⟩) (i : (⟨2, ![n, c]⟩ : Shape).Idx) :
    broadcastInDim ⟨2, ![n, c]⟩ ![0, 1] h2 (broadcastInDim ⟨2, ![1, c]⟩ ![1] h1 bv) i
      = shapeCast ⟨2, ![1, c]⟩ bv hb (ix2 (0 : Fin 1) (i 1)) := by
  obtain ⟨a, k, rfl⟩ : ∃ (a : Fin n) (k : Fin c), i = ix2 a k := ⟨i 0, i 1, eq_ix2 i⟩
  rw [broadcastInDim_apply _ h2 _ (ix2 a k) (ix2 (0 : Fin 1) k) (fun ax => by
        match ax with
        | ⟨0, _⟩ => rfl
        | ⟨1, _⟩ => show k.val = if c = 1 then 0 else k.val; split; (have := k.isLt; omega); rfl),
      broadcastInDim_apply _ h1 _ (ix2 (0 : Fin 1) k) (ix1 k) (fun ax => by
        match ax with
        | ⟨0, _⟩ => show k.val = if c = 1 then 0 else k.val; split; (have := k.isLt; omega); rfl)]
  exact (shapeCast_a_1a_apply bv hb 0 k).symm

end Cert.Lib.Spread

end
-- ==== Proof.RefLayers.lean ====
/-
  The reference's layers and pooled head, read as the row-wise functions of one node and of one graph.

  On the host a layer is written with whole-array operations: the inverse in-degree (one number per node) is spread
  over the features and multiplied into the summed neighbour features, two contractions with the weight matrices,
  the bias (one number per feature) spread over the nodes, two sums, and for all but the last layer the maximum with
  zero.  Entry by entry that is the layer of Proof/NodeRow.lean; the only law used is that the sum of three extended
  reals does not depend on the order they are added in.  The pooled head likewise.
-/
import proofs.«150990_j15101105013418_2_alg».proof.Proof.Gen.ReferenceIdeal.Read
import proofs.«150990_j15101105013418_2_alg».proof.Proof.NodeRow
import proofs.«150990_j15101105013418_2_alg».proof.Proof.LibRowLayout
import proofs.«150990_j15101105013418_2_alg».proof.Proof.LibSpread
import Idealize.ShloMosaic.Lib.Pipeline.Value
import Idealize.ShloMosaic.Lib.ValueLayout

noncomputable section

namespace Cert.ReferenceIdeal.Layers

open Idealize.ShloMosaic Idealize.ShloMosaic.ValueIdx
open Cert.ReferenceIdeal Cert.ReferenceIdeal.Gen Cert.ReferenceIdeal.Read Cert.GraphNet Cert.Lib.PlainDot Cert.Lib.Spread Cert.KernelIdeal.MvnKernel

/-- The host's layer before its activation is the layer of Proof/NodeRow.lean. -/
theorem host_lin (A H : FVec Ideal S300000x16 .f32) (d : FVec Ideal S300000 .f32) (Wl Wr : FVec Ideal S16x16 .f32)
    (bv : FVec Ideal S16 .f32) (hc : S300000.ShapeCasts S300000x1) (hb : S16.ShapeCasts S1x16) :
    addf (addf (Host.dotGeneral dot_S300000x16_S16x16_S300000x16_1_0_0_1_n_n none
          (mulf A (broadcastInDim S300000x16 ![0, 1] bcast_S300000x1_S300000x16_0_1
            (broadcastInDim S300000x1 ![0] bcast_S300000_S300000x1_0 d))) Wl)
        (broadcastInDim S300000x16 ![0, 1] bcast_S1x16_S300000x16_0_1 (broadcastInDim S1x16 ![1] bcast_S16_S1x16_1 bv)))
      (Host.dotGeneral dot_S300000x16_S16x16_S300000x16_1_0_0_1_n_n none H Wr)
    = layerLin A H (shapeCast S300000x1 d hc) Wl Wr (shapeCast S1x16 bv hb) := by
  funext j
  have hs : mulf A (broadcastInDim S300000x16 ![0, 1] bcast_S300000x1_S300000x16_0_1
      (broadcastInDim S300000x1 ![0] bcast_S300000_S300000x1_0 d)) = scaled A (shapeCast S300000x1 d hc) :=
    funext fun i => by
      show A i * _ = A i * _
      rw [spread_col d bcast_S300000_S300000x1_0 bcast_S300000x1_S300000x16_0_1 hc i]
  rw [hs]
  simp only [Host.dotGeneral]
  show (FloatOps.dotGeneral (F := Ideal) dot_S300000x16_S16x16_S300000x16_1_0_0_1_n_n none _ _ _ j + _) +
      FloatOps.dotGeneral (F := Ideal) dot_S300000x16_S16x16_S300000x16_1_0_0_1_n_n none _ _ _ j = _
  rw [dotGeneral_apply (R := 300000) (K := 16) (C := 16) dot_S300000x16_S16x16_S300000x16_1_0_0_1_n_n rfl,
    dotGeneral_apply (R := 300000) (K := 16) (C := 16) dot_S300000x16_S16x16_S300000x16_1_0_0_1_n_n rfl,
    spread_row bv bcast_S16_S1x16_1 bcast_S1x16_S300000x16_0_1 hb j]
  exact add_right_comm _ _ _

/-- The host's activation: the maximum with the zero word spread over the array. -/
theorem host_act (X : FVec Ideal S300000x16 .f32) :
    maximumf X (broadcastInDim S300000x16 ![] bcast_S_S300000x16 (constant (F := Ideal) S_ .f32 0x00000000#32))
      = fun j => max (X j) (FloatOps.ofBits (F := Ideal) .f32 0x00000000#32) := rfl

variable (x0 : (⟨S300000x16, .f32⟩ : BufTy).Contents (Elt Ideal)) (x1 : (⟨S2x4800000, .i32⟩ : BufTy).Contents (Elt Ideal))
  (x2 : (⟨S300000, .i32⟩ : BufTy).Contents (Elt Ideal)) (x3 : (⟨S3x16x16, .f32⟩ : BufTy).Contents (Elt Ideal))
  (x4 : (⟨S3x16, .f32⟩ : BufTy).Contents (Elt Ideal)) (x5 : (⟨S3x16x16, .f32⟩ : BufTy).Contents (Elt Ideal))
  (x6 : (⟨S16x1, .f32⟩ : BufTy).Contents (Elt Ideal)) (x7 : (⟨S1, .f32⟩ : BufTy).Contents (Elt Ideal))
  (hc : S300000.ShapeCasts S300000x1) (hb : S16.ShapeCasts S1x16)

/-- The node features after the first layer. -/
theorem layer1 : val_main_v37 (F := Ideal) x0 x1 x3 x4 x5
    = layerAct (FloatOps.ofBits (F := Ideal) .f32 0x00000000#32) (val_main_v22 (F := Ideal) x0 x1) x0 (shapeCast S300000x1 (val_main_v11 (F := Ideal) x1) hc)
        (val_main_v26 (F := Ideal) x3) (val_main_v34 (F := Ideal) x5) (shapeCast S1x16 (val_main_v29 (F := Ideal) x4) hb) := by
  unfold val_main_v37 val_main_v36 val_main_v32 val_main_v35 val_main_v31 val_main_v30 val_main_v27 val_main_v24
    val_main_v23 val_main_v12 val_main_call0_v0 val_main_call0_cst
  rw [host_act, host_lin _ _ _ _ _ _ hc hb]
  rfl

/-- The node features after the second layer. -/
theorem layer2 : val_main_v62 (F := Ideal) x0 x1 x3 x4 x5
    = layerAct (FloatOps.ofBits (F := Ideal) .f32 0x00000000#32) (val_main_v47 (F := Ideal) x0 x1 x3 x4 x5) (val_main_v37 (F := Ideal) x0 x1 x3 x4 x5)
        (shapeCast S300000x1 (val_main_v11 (F := Ideal) x1) hc)
        (val_main_v51 (F := Ideal) x3) (val_main_v59 (F := Ideal) x5) (shapeCast S1x16 (val_main_v54 (F := Ideal) x4) hb) := by
  unfold val_main_v62 val_main_v61 val_main_v57 val_main_v60 val_main_v56 val_main_v55 val_main_v52 val_main_v49
    val_main_v48 val_main_v12 val_main_call1_v0 val_main_call1_cst
  rw [host_act, host_lin _ _ _ _ _ _ hc hb]
  rfl

/-- The node features after the third layer, which has no activation. -/
theorem layer3 : val_main_v86 (F := Ideal) x0 x1 x3 x4 x5
    = layerLin (val_main_v72 (F := Ideal) x0 x1 x3 x4 x5) (val_main_v62 (F := Ideal) x0 x1 x3 x4 x5)
        (shapeCast S300000x1 (val_main_v11 (F := Ideal) x1) hc)
        (val_main_v76 (F := Ideal) x3) (val_main_v84 (F := Ideal) x5) (shapeCast S1x16 (val_main_v79 (F := Ideal) x4) hb) := by
  unfold val_main_v86 val_main_v82 val_main_v85 val_main_v81 val_main_v80 val_main_v77 val_main_v74 val_main_v73 val_main_v12
  rw [host_lin _ _ _ _ _ _ hc hb]

/-- The host's pooled head is the pooled head of Proof/NodeRow.lean. -/
theorem host_pool (gsum : FVec Ideal S1000x16 .f32) (cnt : FVec Ideal S1000 .f32) (w : FVec Ideal S16x1 .f32)
    (b1 : FVec Ideal S1 .f32) (hp : S1000.ShapeCasts S1000x1) (hq : S1.ShapeCasts S1x1) :
    addf (Host.dotGeneral dot_S1000x16_S16x1_S1000x1_1_0_0_1_n_n none
        (Host.divf gsum (broadcastInDim S1000x16 ![0, 1] bcast_S1000x1_S1000x16_0_1
          (broadcastInDim S1000x1 ![0] bcast_S1000_S1000x1_0
            (maximumf cnt (broadcastInDim S1000 ![] bcast_S_S1000 (constant (F := Ideal) S_ .f32 0x3F800000#32)))))) w)
      (broadcastInDim S1000x1 ![0, 1] bcast_S1x1_S1000x1_0_1 (broadcastInDim S1x1 ![1] bcast_S1_S1x1_1 b1))
    = poolHead (FloatOps.ofBits (F := Ideal) .f32 0x3F800000#32) gsum (shapeCast S1000x1 cnt hp) w (shapeCast S1x1 b1 hq) := by
  funext j
  have hs : Host.divf gsum (broadcastInDim S1000x16 ![0, 1] bcast_S1000x1_S1000x16_0_1
        (broadcastInDim S1000x1 ![0] bcast_S1000_S1000x1_0
          (maximumf cnt (broadcastInDim S1000 ![] bcast_S_S1000 (constant (F := Ideal) S_ .f32 0x3F800000#32)))))
      = fun i => Ideal.div (gsum i) (max (shapeCast S1000x1 cnt hp (colOf i)) (FloatOps.ofBits (F := Ideal) .f32 0x3F800000#32)) := funext fun i => by
    show Ideal.div (gsum i) _ = _
    rw [spread_col _ bcast_S1000_S1000x1_0 bcast_S1000x1_S1000x16_0_1 hp i]
    obtain ⟨a, k, rfl⟩ : ∃ (a : Fin 1000) (k : Fin 16), i = ix2 a k := ⟨i 0, i 1, eq_ix2 i⟩
    show Ideal.div (gsum (ix2 a k)) (shapeCast S1000x1 _ hp (ix2 a (0 : Fin 1)))
      = Ideal.div (gsum (ix2 a k)) (max (shapeCast S1000x1 cnt hp (ix2 a (0 : Fin 1))) _)
    rw [shapeCast_a_a1_apply, shapeCast_a_a1_apply]
    rfl
  rw [hs]
  simp only [Host.dotGeneral]
  show FloatOps.dotGeneral (F := Ideal) dot_S1000x16_S16x1_S1000x1_1_0_0_1_n_n none _ _ _ j + _ = _
  rw [dotGeneral_apply (R := 1000) (K := 16) (C := 1) dot_S1000x16_S16x1_S1000x1_1_0_0_1_n_n rfl,
    spread_row b1 bcast_S1_S1x1_1 bcast_S1x1_S1000x1_0_1 hq j]
  rfl

/-- The program's result: the pooled head of the per-graph sums of the third layer's features. -/
theorem pooled (hp : S1000.ShapeCasts S1000x1) (hq : S1.ShapeCasts S1x1) :
    val_main_v102 (F := Ideal) x0 x1 x2 x3 x4 x5 x6 x7
    = poolHead (FloatOps.ofBits (F := Ideal) .f32 0x3F800000#32) (val_main_v89 (F := Ideal) x0 x1 x2 x3 x4 x5) (shapeCast S1000x1 (val_main_v93 (F := Ideal) x2) hp)
        x6 (shapeCast S1x1 x7 hq) := by
  unfold val_main_v102 val_main_v99 val_main_v98 val_main_v97 val_main_v96 val_main_v95 val_main_v94 val_main_cst_14
    val_main_v101 val_main_v100
  exact host_pool _ _ _ _ hp hq

end Cert.ReferenceIdeal.Layers

end
-- ==== Proof.FoldLayer1.lean ====
/-
  The first layer's region, in the fold of buffer contents.

  At the region's entry its six operand arrays hold the reference's corresponding stages (the neighbour sums, the
  node features, the inverse in-degree column, the two weight matrices, the bias row); the region leaves the layer of
  those arrays in its result array; and the reference's next stage is that same layer.  The buffers the later stages
  read are not touched by the region (the inverse in-degree column is one of its inputs, which it only reads).
-/
import proofs.«150990_j15101105013418_2_alg».proof.Proof.FoldKept1
import proofs.«150990_j15101105013418_2_alg».proof.Proof.FoldOps0
import proofs.«150990_j15101105013418_2_alg».proof.Proof.Layer0Block
import proofs.«150990_j15101105013418_2_alg».proof.Proof.RefLayers

set_option maxRecDepth 16384

noncomputable section

namespace Cert.Bridge

open Idealize.ShloMosaic Idealize.ShloMosaic.TcCoe Idealize.SL.Sem Idealize.ShloMosaic.StableHlo
open Cert.KernelIdeal Cert.KernelIdeal.Gen
open Cert.ReferenceIdeal.Read Cert.GraphNet

variable (m : (ℓ : Loc nD τ sig) → Buf (Elt Ideal) ℓ) (ρ : Dev nD → PrngReg) (c : Dev nD)

open Cert.ReferenceIdeal.Layers

/-- The node features after the first layer, as the kernel leaves them, are the reference's. -/
theorem out1 : W2 m ρ c (Proc.devRef .tc main_v30) = val_main_v37 (F := Ideal) (L0 m c) (L1 m c) (L3 m c) (L4 m c) (L5 m c) := by
  refine (W2_arr m ρ c 6).trans ?_
  rw [Cert.KernelIdeal.Layer0.array_eq]
  show layerAct (FloatOps.ofBits (F := Ideal) .f32 0x00000000#32) (W1 m ρ c (Proc.devRef .tc main_v22)) (W1 m ρ c (Proc.devRef .tc main_arg0))
      (W1 m ρ c (Proc.devRef .tc main_v12)) (W1 m ρ c (Proc.devRef .tc main_v24))
      (W1 m ρ c (Proc.devRef .tc main_v28)) (W1 m ρ c (Proc.devRef .tc main_v29)) = _
  rw [agg1 m ρ c, feat1 m ρ c, (kept1 m ρ c).inv, wl1 m ρ c, wr1 m ρ c, bias1 m ρ c]
  exact (layer1 _ _ _ _ _ shapeCasts_S300000_S300000x1 shapeCasts_S16_S1x16).symm

/-- The region leaves what the later stages read as it found it. -/
theorem kept2 : Kept m c (W2 m ρ c) :=
  have h := kept1 m ρ c
  ⟨(W2_of_ne m ρ c main_v1 (by decide)).trans h.src, (W2_of_ne m ρ c main_v3 (by decide)).trans h.dst,
   ((W2_arr m ρ c 2).trans (((dat0 (V1 m ρ) c).arrAt_in 2 rfl _).trans (A_eq0 (V1 m ρ) c 2))).trans h.inv,
   (W2_of_ne m ρ c main_arg2 (by decide)).trans h.a2,
   (W2_of_ne m ρ c main_arg3 (by decide)).trans h.a3,
   (W2_of_ne m ρ c main_arg4 (by decide)).trans h.a4,
   (W2_of_ne m ρ c main_arg5 (by decide)).trans h.a5,
   (W2_of_ne m ρ c main_arg6 (by decide)).trans h.a6,
   (W2_of_ne m ρ c main_arg7 (by decide)).trans h.a7⟩

end Cert.Bridge

end
-- ==== Proof.FoldKept3.lean ====
/-
  The stretch of host operations after region 0 writes none of the buffers the later stages read.
-/
import proofs.«150990_j15101105013418_2_alg».proof.Proof.FoldLayer1

set_option maxRecDepth 16384

noncomputable section

namespace Cert.Bridge

open Idealize.ShloMosaic Idealize.ShloMosaic.TcCoe Idealize.SL.Sem Idealize.ShloMosaic.StableHlo
open Cert.KernelIdeal Cert.KernelIdeal.Gen
open Cert.ReferenceIdeal.Read Cert.GraphNet

variable (m : (ℓ : Loc nD τ sig) → Buf (Elt Ideal) ℓ) (ρ : Dev nD → PrngReg) (c : Dev nD)

set_option maxHeartbeats 8000000 in
theorem kept3 : Kept m c (W3 m ρ c) := by
  have h := kept2 m ρ c
  refine ⟨?_, ?_, ?_, ?_, ?_, ?_, ?_, ?_, ?_⟩
  all_goals (show StableHlo.after hostOps1 (W2 m ρ c) _ = _; after_results)
  exacts [h.src, h.dst, h.inv, h.a2, h.a3, h.a4, h.a5, h.a6, h.a7]

end Cert.Bridge

end
-- ==== Proof.FoldOps1.lean ====
/-
  What the stretch of host operations after the first layer leaves for the second layer's region: the neighbour sums
  of the first layer's features, those features, and the second weight matrices and bias row.
-/
import proofs.«150990_j15101105013418_2_alg».proof.Proof.FoldLayer1

set_option maxRecDepth 16384

noncomputable section

namespace Cert.Bridge

open Idealize.ShloMosaic Idealize.ShloMosaic.TcCoe Idealize.SL.Sem Idealize.ShloMosaic.StableHlo
open Cert.KernelIdeal Cert.KernelIdeal.Gen
open Cert.ReferenceIdeal.Read Cert.GraphNet

variable (m : (ℓ : Loc nD τ sig) → Buf (Elt Ideal) ℓ) (ρ : Dev nD → PrngReg) (c : Dev nD)

set_option maxHeartbeats 4000000 in
/-- The first layer's features gathered at the edge sources and summed at the edge destinations. -/
theorem agg2 : W3 m ρ c (Proc.devRef .tc main_v40) = val_main_v47 (F := Ideal) (L0 m c) (L1 m c) (L3 m c) (L4 m c) (L5 m c) := by
  show StableHlo.after hostOps1 (W2 m ρ c) (Proc.devRef .tc main_v40) = _
  after_results
  rw [(kept2 m ρ c).src, (kept2 m ρ c).dst, out1 m ρ c]
  first | done | rfl

set_option maxHeartbeats 4000000 in
/-- The stretch does not write the first layer's features. -/
theorem feat2 : W3 m ρ c (Proc.devRef .tc main_v30) = val_main_v37 (F := Ideal) (L0 m c) (L1 m c) (L3 m c) (L4 m c) (L5 m c) := by
  show StableHlo.after hostOps1 (W2 m ρ c) (Proc.devRef .tc main_v30) = _
  after_results
  rw [out1 m ρ c]
  first | done | rfl

set_option maxHeartbeats 4000000 in
/-- The second matrix of the neighbour weights. -/
theorem wl2 : W3 m ρ c (Proc.devRef .tc main_v42) = val_main_v51 (F := Ideal) (L3 m c) := by
  show StableHlo.after hostOps1 (W2 m ρ c) (Proc.devRef .tc main_v42) = _
  after_results
  rw [(kept2 m ρ c).a3]
  first | done | rfl

set_option maxHeartbeats 4000000 in
/-- The second matrix of the self weights. -/
theorem wr2 : W3 m ρ c (Proc.devRef .tc main_v46) = val_main_v59 (F := Ideal) (L5 m c) := by
  show StableHlo.after hostOps1 (W2 m ρ c) (Proc.devRef .tc main_v46) = _
  after_results
  rw [(kept2 m ρ c).a5]
  first | done | rfl

set_option maxHeartbeats 4000000 in
/-- The second bias, as a row. -/
theorem bias2 : W3 m ρ c (Proc.devRef .tc main_v47) = shapeCast S1x16 (val_main_v54 (F := Ideal) (L4 m c)) shapeCasts_S16_S1x16 := by
  show StableHlo.after hostOps1 (W2 m ρ c) (Proc.devRef .tc main_v47) = _
  after_results
  rw [(kept2 m ρ c).a4]
  first | done | rfl

end Cert.Bridge

end
-- ==== Proof.Layer1Block.lean ====
/-
  The second layer's kernel region: the array it leaves is the layer of the arrays it is given.

  The region runs over 100 grid points; point t is handed rows 3000·t … 3000·t + 2999 of the summed neighbour
  features, of the node features and of the inverse in-degree column, and the whole of the two weight matrices and
  of the bias row, and writes back rows 3000·t … 3000·t + 2999 of its result.  The body computes the layer of the
  block it is handed (two matrix products into zero accumulators, their sum, the bias added, the maximum with zero); a layer is
  computed row by row, so that is the same block of the layer of the whole arrays; and the 100 blocks tile the
  300000 rows.  All of it holds for whatever contents the region finds in its buffers.
-/
import proofs.«150990_j15101105013418_2_alg».proof.Proof.Gen.KernelIdeal.Frame
import proofs.«150990_j15101105013418_2_alg».proof.Proof.NodeRow
import proofs.«150990_j15101105013418_2_alg».proof.Proof.LibRowLayout
import Idealize.ShloMosaic.Lib.Pipeline.Value
import Idealize.ShloMosaic.Lib.ValueLayout

set_option maxRecDepth 16384

noncomputable section

namespace Cert.KernelIdeal.Layer1

open Idealize.ShloMosaic Idealize.ShloMosaic.TcCoe Idealize.ShloMosaic.ValueIdx Idealize.SL.Sem
open Idealize.ShloMosaic.Pipeline (Dat)
open Cert.KernelIdeal Cert.KernelIdeal.Gen Cert.GraphNet Cert.Lib.PlainDot Cert.KernelIdeal.MvnKernel

/-- The body's arithmetic, as one term of the blocks it loads, is the layer of those blocks. -/
theorem pay_eq (x0 x1 : Vec Ideal S3000x16 .f32) (x2 : Vec Ideal S3000x1 .f32) (x3 x5 : Vec Ideal S16x16 .f32)
    (x4 : Vec Ideal S1x16 .f32) :
    k1_pay1 (F := Ideal) x0 x2 x1 x3 x5 x4 = layerAct (FloatOps.ofBits (F := Ideal) .f32 0x00000000#32) x0 x1 x2 x3 x5 x4 := by
  funext j
  obtain ⟨p, q, rfl⟩ : ∃ (p : Fin 3000) (q : Fin 16), j = ix2 p q := ⟨j 0, j 1, eq_ix2 j⟩
  unfold k1_pay1 layerAct layerLin
  simp only [shapeCast_self]
  have hs : truncf (F := Ideal) .bf16 (mulf x0 (broadcastTo S3000x16 x2 broadcasts_S3000x1_S3000x16)) bitsLt_bf16_f32
      = scaled x0 x2 := funext fun i => by
    obtain ⟨a, k, rfl⟩ : ∃ (a : Fin 3000) (k : Fin 16), i = ix2 a k := ⟨i 0, i 1, eq_ix2 i⟩
    show x0 (ix2 a k) * broadcastTo S3000x16 x2 broadcasts_S3000x1_S3000x16 (ix2 a k) = x0 (ix2 a k) * x2 (colOf (ix2 a k))
    rw [broadcastTo_a1_ab_apply]
  show max ((FloatOps.matmul (F := Ideal) dot_S3000x16_S16x16_S3000x16_1_0_0_1_n_n none _ _ (constant (F := Ideal) S3000x16 .f32 0x00000000#32) (ix2 p q)
      + FloatOps.matmul (F := Ideal) dot_S3000x16_S16x16_S3000x16_1_0_0_1_n_n none _ _ (constant (F := Ideal) S3000x16 .f32 0x00000000#32) (ix2 p q))
      + broadcastTo S3000x16 x4 broadcasts_S1x16_S3000x16 (ix2 p q)) _ = _
  rw [matmul_zero_apply (R := 3000) (K := 16) (C := 16) dot_S3000x16_S16x16_S3000x16_1_0_0_1_n_n rfl,
    matmul_zero_apply (R := 3000) (K := 16) (C := 16) dot_S3000x16_S16x16_S3000x16_1_0_0_1_n_n rfl, broadcastTo_1b_ab_apply, hs]
  rfl

variable (V : (c : Dev nD) → (b : Ref sig .tc) → Buf (Elt Ideal) ((c : Thread nD τ).loc b))

theorem zero_offsets : (![0, 0] : Fin 2 → Nat) = fun _ => 0 := funext fun a => by fin_cases a <;> rfl

/-- The index maps of the seven windows, decided over the grid: the row-blocked windows are at block (t, 0), the
    weights and the bias at block (0, 0). -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem rows_le (t : Fin cfg1.N) : t.val * 3000 + 3000 ≤ 300000 := by
  have h := t.isLt
  have hN : grid1.N = 100 := N_1
  have h' : t.val < 100 := hN ▸ h
  omega

/-- Where the row-blocked windows' blocks sit in their arrays: rows 3000·t onwards. -/
theorem emb_rows16_0 (t : Fin cfg1.N) (y : S3000x16.Idx) :
    (((cfg1.win 0).blk t).view.emb y : S300000x16.Idx) = shift (t.val * 3000) (rows_le t) y := by
  obtain ⟨e00, e01, e10, e11, e20, e21, e30, e31, e40, e41, e50, e51, e60, e61⟩ := block_index t
  funext a; apply Fin.ext
  match a with
  | ⟨0, _⟩ => show win1_0.index t (0 : Fin 2) * 3000 + 1 * (y 0).val = t.val * 3000 + (y 0).val; omega
  | ⟨1, _⟩ => show win1_0.index t (1 : Fin 2) * 16 + 1 * (y 1).val = (y 1).val; omega
theorem emb_rows16_1 (t : Fin cfg1.N) (y : S3000x16.Idx) :
    (((cfg1.win 1).blk t).view.emb y : S300000x16.Idx) = shift (t.val * 3000) (rows_le t) y := by
  obtain ⟨e00, e01, e10, e11, e20, e21, e30, e31, e40, e41, e50, e51, e60, e61⟩ := block_index t
  funext a; apply Fin.ext
  match a with
  | ⟨0, _⟩ => show win1_1.index t (0 : Fin 2) * 3000 + 1 * (y 0).val = t.val * 3000 + (y 0).val; omega
  | ⟨1, _⟩ => show win1_1.index t (1 : Fin 2) * 16 + 1 * (y 1).val = (y 1).val; omega
theorem emb_rows16_6 (t : Fin cfg1.N) (y : S3000x16.Idx) :
    (((cfg1.win 6).blk t).view.emb y : S300000x16.Idx) = shift (t.val * 3000) (rows_le t) y := by
  obtain ⟨e00, e01, e10, e11, e20, e21, e30, e31, e40, e41, e50, e51, e60, e61⟩ := block_index t
  funext a; apply Fin.ext
  match a with
  | ⟨0, _⟩ => show win1_6.index t (0 : Fin 2) * 3000 + 1 * (y 0).val = t.val * 3000 + (y 0).val; omega
  | ⟨1, _⟩ => show win1_6.index t (1 : Fin 2) * 16 + 1 * (y 1).val = (y 1).val; omega
theorem emb_rows1 (t : Fin cfg1.N) (y : S3000x1.Idx) :
    (((cfg1.win 2).blk t).view.emb y : S300000x1.Idx) = shift (t.val * 3000) (rows_le t) y := by
  obtain ⟨e00, e01, e10, e11, e20, e21, e30, e31, e40, e41, e50, e51, e60, e61⟩ := block_index t
  funext a; apply Fin.ext
  match a with
  | ⟨0, _⟩ => show win1_2.index t (0 : Fin 2) * 3000 + 1 * (y 0).val = t.val * 3000 + (y 0).val; omega
  | ⟨1, _⟩ => show win1_2.index t (1 : Fin 2) * 1 + 1 * (y 1).val = (y 1).val; omega

/-- The weights' and the bias' blocks are their whole arrays. -/
theorem emb_w3 (t : Fin cfg1.N) (y : S16x16.Idx) : (((cfg1.win 3).blk t).view.emb y : S16x16.Idx) = y := by
  obtain ⟨e00, e01, e10, e11, e20, e21, e30, e31, e40, e41, e50, e51, e60, e61⟩ := block_index t
  funext a; apply Fin.ext
  match a with
  | ⟨0, _⟩ => show win1_3.index t (0 : Fin 2) * 16 + 1 * (y 0).val = (y 0).val; omega
  | ⟨1, _⟩ => show win1_3.index t (1 : Fin 2) * 16 + 1 * (y 1).val = (y 1).val; omega
theorem emb_w4 (t : Fin cfg1.N) (y : S1x16.Idx) : (((cfg1.win 4).blk t).view.emb y : S1x16.Idx) = y := by
  obtain ⟨e00, e01, e10, e11, e20, e21, e30, e31, e40, e41, e50, e51, e60, e61⟩ := block_index t
  funext a; apply Fin.ext
  match a with
  | ⟨0, _⟩ => show win1_4.index t (0 : Fin 2) * 1 + 1 * (y 0).val = (y 0).val; omega
  | ⟨1, _⟩ => show win1_4.index t (1 : Fin 2) * 16 + 1 * (y 1).val = (y 1).val; omega
theorem emb_w5 (t : Fin cfg1.N) (y : S16x16.Idx) : (((cfg1.win 5).blk t).view.emb y : S16x16.Idx) = y := by
  obtain ⟨e00, e01, e10, e11, e20, e21, e30, e31, e40, e41, e50, e51, e60, e61⟩ := block_index t
  funext a; apply Fin.ext
  match a with
  | ⟨0, _⟩ => show win1_5.index t (0 : Fin 2) * 16 + 1 * (y 0).val = (y 0).val; omega
  | ⟨1, _⟩ => show win1_5.index t (1 : Fin 2) * 16 + 1 * (y 1).val = (y 1).val; omega

/-- The blocks a point is handed, read off the arrays as the region finds them. -/
theorem blk0 (c : Dev nD) (t : Fin cfg1.N) : iblk1 V c 0 t = fun y => V c main_v40 (shift (t.val * 3000) (rows_le t) y) :=
  funext fun y => congrArg (V c main_v40) (emb_rows16_0 t y)
theorem blk1 (c : Dev nD) (t : Fin cfg1.N) : iblk1 V c 1 t = fun y => V c main_v30 (shift (t.val * 3000) (rows_le t) y) :=
  funext fun y => congrArg (V c main_v30) (emb_rows16_1 t y)
theorem blk2 (c : Dev nD) (t : Fin cfg1.N) : iblk1 V c 2 t = fun y => V c main_v12 (shift (t.val * 3000) (rows_le t) y) :=
  funext fun y => congrArg (V c main_v12) (emb_rows1 t y)
theorem blk3 (c : Dev nD) (t : Fin cfg1.N) : iblk1 V c 3 t = V c main_v42 :=
  funext fun y => congrArg (V c main_v42) (emb_w3 t y)
theorem blk4 (c : Dev nD) (t : Fin cfg1.N) : iblk1 V c 4 t = V c main_v47 :=
  funext fun y => congrArg (V c main_v47) (emb_w4 t y)
theorem blk5 (c : Dev nD) (t : Fin cfg1.N) : iblk1 V c 5 t = V c main_v46 :=
  funext fun y => congrArg (V c main_v46) (emb_w5 t y)

/-- What the layer region leaves in its result array, as a function of the arrays it finds. -/
abbrev result (c : Dev nD) : S300000x16.Idx → EReal :=
  layerAct (FloatOps.ofBits (F := Ideal) .f32 0x00000000#32) (V c main_v40) (V c main_v30) (V c main_v12) (V c main_v42) (V c main_v46) (V c main_v47)

/-- Point t writes back rows 3000·t … 3000·t + 2999 of the layer of the whole arrays. -/
theorem flushed_eq (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6]
  unfold out1_6
  rw [View.canon_unit_zero zero_offsets]
  simp only [View.ld_unit_zero (S := S3000x16) zero_offsets, View.ld_unit_zero (S := S3000x1) zero_offsets,
    View.ld_unit_zero (S := S16x16) zero_offsets, View.ld_unit_zero (S := S1x16) zero_offsets]
  rw [pay_eq, blk0, blk1, blk2, blk3, blk4, blk5]
  funext y
  show layerAct (FloatOps.ofBits (F := Ideal) .f32 0x00000000#32) _ _ _ _ _ _ y = result V c (((cfg1.win 6).blk t).view.emb y)
  rw [emb_rows16_6 t y]
  show max (layerLin _ _ _ _ _ _ y) _ = max (layerLin _ _ _ _ _ _ (shift (t.val * 3000) (rows_le t) y)) _
  rw [layerLin_rows]

/-- A row of the result array belongs to the block of the point that its number divided by 3000 names. -/
theorem mem_block (t : Fin cfg1.N) (i : S300000x16.Idx) :
    i ∈ ((cfg1.win 6).blk t).view.set ↔ ∀ a : Fin 2, win1_6.index t a * S3000x16.size a ≤ (i a).val ∧ (i a).val < win1_6.index t a * S3000x16.size a + S3000x16.size a := by
  show i ∈ ((View.whole main_v48).slice (win1_6.rect t)).set ↔ _
  rw [View.set_slice_whole, Rect.mem_set_unit]
  exact Iff.rfl

theorem cover (i : S300000x16.Idx) :
    ∃ t : Fin cfg1.N, (cfg1.win 6).flush t = true ∧ i ∈ ((cfg1.win 6).blk t).view.set := by
  have hi0 : (i 0).val < 300000 := idx2_lt0 i
  have hi1 : (i 1).val < 16 := idx2_lt1 i
  have hN : grid1.N = 100 := N_1
  let t : Fin cfg1.N := ⟨(i 0).val / 3000, by show (i 0).val / 3000 < grid1.N; rw [hN]; omega⟩
  obtain ⟨e00, e01, e10, e11, e20, e21, e30, e31, e40, e41, e50, e51, e60, e61⟩ := block_index t
  have ht : t.val = (i 0).val / 3000 := rfl
  refine ⟨t, flush1_6 t, ?_⟩
  rw [mem_block]
  intro a
  match a with
  | ⟨0, _⟩ => show win1_6.index t (0 : Fin 2) * 3000 ≤ (i 0).val ∧ (i 0).val < win1_6.index t (0 : Fin 2) * 3000 + 3000; omega
  | ⟨1, _⟩ => show win1_6.index t (1 : Fin 2) * 16 ≤ (i 1).val ∧ (i 1).val < win1_6.index t (1 : Fin 2) * 16 + 16; omega

/-- The result array after the region. -/
theorem array_eq (c : Dev nD) : (dat1 V c).arrAt 6 cfg1.N = result V c :=
  (dat1 V c).arrAt_eq_of_cover 6 (result V c) (fun t _ => flushed_eq V c t) cover

end Cert.KernelIdeal.Layer1

end
-- ==== Proof.FoldLayer2.lean ====
/-
  The second layer's region, in the fold of buffer contents.

  At the region's entry its six operand arrays hold the reference's corresponding stages (the neighbour sums, the
  node features, the inverse in-degree column, the two weight matrices, the bias row); the region leaves the layer of
  those arrays in its result array; and the reference's next stage is that same layer.  The buffers the later stages
  read are not touched by the region (the inverse in-degree column is one of its inputs, which it only reads).
-/
import proofs.«150990_j15101105013418_2_alg».proof.Proof.FoldKept3
import proofs.«150990_j15101105013418_2_alg».proof.Proof.FoldOps1
import proofs.«150990_j15101105013418_2_alg».proof.Proof.Layer1Block
import proofs.«150990_j15101105013418_2_alg».proof.Proof.RefLayers

set_option maxRecDepth 16384

noncomputable section

namespace Cert.Bridge

open Idealize.ShloMosaic Idealize.ShloMosaic.TcCoe Idealize.SL.Sem Idealize.ShloMosaic.StableHlo
open Cert.KernelIdeal Cert.KernelIdeal.Gen
open Cert.ReferenceIdeal.Read Cert.GraphNet

variable (m : (ℓ : Loc nD τ sig) → Buf (Elt Ideal) ℓ) (ρ : Dev nD → PrngReg) (c : Dev nD)

open Cert.ReferenceIdeal.Layers

/-- The node features after the second layer, as the kernel leaves them, are the reference's. -/
theorem out2 : W4 m ρ c (Proc.devRef .tc main_v48) = val_main_v62 (F := Ideal) (L0 m c) (L1 m c) (L3 m c) (L4 m c) (L5 m c) := by
  refine (W4_arr m ρ c 6).trans ?_
  rw [Cert.KernelIdeal.Layer1.array_eq]
  show layerAct (FloatOps.ofBits (F := Ideal) .f32 0x00000000#32) (W3 m ρ c (Proc.devRef .tc main_v40)) (W3 m ρ c (Proc.devRef .tc main_v30))
      (W3 m ρ c (Proc.devRef .tc main_v12)) (W3 m ρ c (Proc.devRef .tc main_v42))
      (W3 m ρ c (Proc.devRef .tc main_v46)) (W3 m ρ c (Proc.devRef .tc main_v47)) = _
  rw [agg2 m ρ c, feat2 m ρ c, (kept3 m ρ c).inv, wl2 m ρ c, wr2 m ρ c, bias2 m ρ c]
  exact (layer2 _ _ _ _ _ shapeCasts_S300000_S300000x1 shapeCasts_S16_S1x16).symm

/-- The region leaves what the later stages read as it found it. -/
theorem kept4 : Kept m c (W4 m ρ c) :=
  have h := kept3 m ρ c
  ⟨(W4_of_ne m ρ c main_v1 (by decide)).trans h.src, (W4_of_ne m ρ c main_v3 (by decide)).trans h.dst,
   ((W4_arr m ρ c 2).trans (((dat1 (V3 m ρ) c).arrAt_in 2 rfl _).trans (A_eq1 (V3 m ρ) c 2))).trans h.inv,
   (W4_of_ne m ρ c main_arg2 (by decide)).trans h.a2,
   (W4_of_ne m ρ c main_arg3 (by decide)).trans h.a3,
   (W4_of_ne m ρ c main_arg4 (by decide)).trans h.a4,
   (W4_of_ne m ρ c main_arg5 (by decide)).trans h.a5,
   (W4_of_ne m ρ c main_arg6 (by decide)).trans h.a6,
   (W4_of_ne m ρ c main_arg7 (by decide)).trans h.a7⟩

end Cert.Bridge

end
-- ==== Proof.FoldKept5.lean ====
/-
  The stretch of host operations after region 1 writes none of the buffers the later stages read.
-/
import proofs.«150990_j15101105013418_2_alg».proof.Proof.FoldLayer2

set_option maxRecDepth 16384

noncomputable section

namespace Cert.Bridge

open Idealize.ShloMosaic Idealize.ShloMosaic.TcCoe Idealize.SL.Sem Idealize.ShloMosaic.StableHlo
open Cert.KernelIdeal Cert.KernelIdeal.Gen
open Cert.ReferenceIdeal.Read Cert.GraphNet

variable (m : (ℓ : Loc nD τ sig) → Buf (Elt Ideal) ℓ) (ρ : Dev nD → PrngReg) (c : Dev nD)

set_option maxHeartbeats 8000000 in
theorem kept5 : Kept m c (W5 m ρ c) := by
  have h := kept4 m ρ c
  refine ⟨?_, ?_, ?_, ?_, ?_, ?_, ?_, ?_, ?_⟩
  all_goals (show StableHlo.after hostOps2 (W4 m ρ c) _ = _; after_results)
  exacts [h.src, h.dst, h.inv, h.a2, h.a3, h.a4, h.a5, h.a6, h.a7]

end Cert.Bridge

end
-- ==== Proof.FoldOps2.lean ====
/-
  What the stretch of host operations after the second layer leaves for the third layer's region: the neighbour sums
  of the second layer's features, those features, and the third weight matrices and bias row.
-/
import proofs.«150990_j15101105013418_2_alg».proof.Proof.FoldLayer2

set_option maxRecDepth 16384

noncomputable section

namespace Cert.Bridge

open Idealize.ShloMosaic Idealize.ShloMosaic.TcCoe Idealize.SL.Sem Idealize.ShloMosaic.StableHlo
open Cert.KernelIdeal Cert.KernelIdeal.Gen
open Cert.ReferenceIdeal.Read Cert.GraphNet

variable (m : (ℓ : Loc nD τ sig) → Buf (Elt Ideal) ℓ) (ρ : Dev nD → PrngReg) (c : Dev nD)

set_option maxHeartbeats 4000000 in
/-- The second layer's features gathered at the edge sources and summed at the edge destinations. -/
theorem agg3 : W5 m ρ c (Proc.devRef .tc main_v58) = val_main_v72 (F := Ideal) (L0 m c) (L1 m c) (L3 m c) (L4 m c) (L5 m c) := by
  show StableHlo.after hostOps2 (W4 m ρ c) (Proc.devRef .tc main_v58) = _
  after_results
  rw [(kept4 m ρ c).src, (kept4 m ρ c).dst, out2 m ρ c]
  first | done | rfl

set_option maxHeartbeats 4000000 in
/-- The stretch does not write the second layer's features. -/
theorem feat3 : W5 m ρ c (Proc.devRef .tc main_v48) = val_main_v62 (F := Ideal) (L0 m c) (L1 m c) (L3 m c) (L4 m c) (L5 m c) := by
  show StableHlo.after hostOps2 (W4 m ρ c) (Proc.devRef .tc main_v48) = _
  after_results
  rw [out2 m ρ c]
  first | done | rfl

set_option maxHeartbeats 4000000 in
/-- The third matrix of the neighbour weights. -/
theorem wl3 : W5 m ρ c (Proc.devRef .tc main_v60) = val_main_v76 (F := Ideal) (L3 m c) := by
  show StableHlo.after hostOps2 (W4 m ρ c) (Proc.devRef .tc main_v60) = _
  after_results
  rw [(kept4 m ρ c).a3]
  first | done | rfl

set_option maxHeartbeats 4000000 in
/-- The third matrix of the self weights. -/
theorem wr3 : W5 m ρ c (Proc.devRef .tc main_v64) = val_main_v84 (F := Ideal) (L5 m c) := by
  show StableHlo.after hostOps2 (W4 m ρ c) (Proc.devRef .tc main_v64) = _
  after_results
  rw [(kept4 m ρ c).a5]
  first | done | rfl

set_option maxHeartbeats 4000000 in
/-- The third bias, as a row. -/
theorem bias3 : W5 m ρ c (Proc.devRef .tc main_v65) = shapeCast S1x16 (val_main_v79 (F := Ideal) (L4 m c)) shapeCasts_S16_S1x16 := by
  show StableHlo.after hostOps2 (W4 m ρ c) (Proc.devRef .tc main_v65) = _
  after_results
  rw [(kept4 m ρ c).a4]
  first | done | rfl

end Cert.Bridge

end
-- ==== Proof.Layer2Block.lean ====
/-
  The third layer's kernel region: the array it leaves is the layer of the arrays it is given.

  The region runs over 100 grid points; point t is handed rows 3000·t … 3000·t + 2999 of the summed neighbour
  features, of the node features and of the inverse in-degree column, and the whole of the two weight matrices and
  of the bias row, and writes back rows 3000·t … 3000·t + 2999 of its result.  The body computes the layer of the
  block it is handed (two matrix products into zero accumulators, their sum, the bias added); a layer is
  computed row by row, so that is the same block of the layer of the whole arrays; and the 100 blocks tile the
  300000 rows.  All of it holds for whatever contents the region finds in its buffers.
-/
import proofs.«150990_j15101105013418_2_alg».proof.Proof.Gen.KernelIdeal.Frame
import proofs.«150990_j15101105013418_2_alg».proof.Proof.NodeRow
import proofs.«150990_j15101105013418_2_alg».proof.Proof.LibRowLayout
import Idealize.ShloMosaic.Lib.Pipeline.Value
import Idealize.ShloMosaic.Lib.ValueLayout

set_option maxRecDepth 16384

noncomputable section

namespace Cert.KernelIdeal.Layer2

open Idealize.ShloMosaic Idealize.ShloMosaic.TcCoe Idealize.ShloMosaic.ValueIdx Idealize.SL.Sem
open Idealize.ShloMosaic.Pipeline (Dat)
open Cert.KernelIdeal Cert.KernelIdeal.Gen Cert.GraphNet Cert.Lib.PlainDot Cert.KernelIdeal.MvnKernel

/-- The body's arithmetic, as one term of the blocks it loads, is the layer of those blocks. -/
theorem pay_eq (x0 x1 : Vec Ideal S3000x16 .f32) (x2 : Vec Ideal S3000x1 .f32) (x3 x5 : Vec Ideal S16x16 .f32)
    (x4 : Vec Ideal S1x16 .f32) :
    k2_pay1 (F := Ideal) x0 x2 x1 x3 x5 x4 = layerLin x0 x1 x2 x3 x5 x4 := by
  funext j
  obtain ⟨p, q, rfl⟩ : ∃ (p : Fin 3000) (q : Fin 16), j = ix2 p q := ⟨j 0, j 1, eq_ix2 j⟩
  unfold k2_pay1 layerLin
  simp only [shapeCast_self]
  have hs : truncf (F := Ideal) .bf16 (mulf x0 (broadcastTo S3000x16 x2 broadcasts_S3000x1_S3000x16)) bitsLt_bf16_f32
      = scaled x0 x2 := funext fun i => by
    obtain ⟨a, k, rfl⟩ : ∃ (a : Fin 3000) (k : Fin 16), i = ix2 a k := ⟨i 0, i 1, eq_ix2 i⟩
    show x0 (ix2 a k) * broadcastTo S3000x16 x2 broadcasts_S3000x1_S3000x16 (ix2 a k) = x0 (ix2 a k) * x2 (colOf (ix2 a k))
    rw [broadcastTo_a1_ab_apply]
  show (FloatOps.matmul (F := Ideal) dot_S3000x16_S16x16_S3000x16_1_0_0_1_n_n none _ _ (constant (F := Ideal) S3000x16 .f32 0x00000000#32) (ix2 p q)
      + FloatOps.matmul (F := Ideal) dot_S3000x16_S16x16_S3000x16_1_0_0_1_n_n none _ _ (constant (F := Ideal) S3000x16 .f32 0x00000000#32) (ix2 p q))
      + broadcastTo S3000x16 x4 broadcasts_S1x16_S3000x16 (ix2 p q) = _
  rw [matmul_zero_apply (R := 3000) (K := 16) (C := 16) dot_S3000x16_S16x16_S3000x16_1_0_0_1_n_n rfl,
    matmul_zero_apply (R := 3000) (K := 16) (C := 16) dot_S3000x16_S16x16_S3000x16_1_0_0_1_n_n rfl, broadcastTo_1b_ab_apply, hs]
  rfl

variable (V : (c : Dev nD) → (b : Ref sig .tc) → Buf (Elt Ideal) ((c : Thread nD τ).loc b))

theorem zero_offsets : (![0, 0] : Fin 2 → Nat) = fun _ => 0 := funext fun a => by fin_cases a <;> rfl

/-- The index maps of the seven windows, decided over the grid: the row-blocked windows are at block (t, 0), the
    weights and the bias at block (0, 0). -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem rows_le (t : Fin cfg2.N) : t.val * 3000 + 3000 ≤ 300000 := by
  have h := t.isLt
  have hN : grid2.N = 100 := N_2
  have h' : t.val < 100 := hN ▸ h
  omega

/-- Where the row-blocked windows' blocks sit in their arrays: rows 3000·t onwards. -/
theorem emb_rows16_0 (t : Fin cfg2.N) (y : S3000x16.Idx) :
    (((cfg2.win 0).blk t).view.emb y : S300000x16.Idx) = shift (t.val * 3000) (rows_le t) y := by
  obtain ⟨e00, e01, e10, e11, e20, e21, e30, e31, e40, e41, e50, e51, e60, e61⟩ := block_index t
  funext a; apply Fin.ext
  match a with
  | ⟨0, _⟩ => show win2_0.index t (0 : Fin 2) * 3000 + 1 * (y 0).val = t.val * 3000 + (y 0).val; omega
  | ⟨1, _⟩ => show win2_0.index t (1 : Fin 2) * 16 + 1 * (y 1).val = (y 1).val; omega
theorem emb_rows16_1 (t : Fin cfg2.N) (y : S3000x16.Idx) :
    (((cfg2.win 1).blk t).view.emb y : S300000x16.Idx) = shift (t.val * 3000) (rows_le t) y := by
  obtain ⟨e00, e01, e10, e11, e20, e21, e30, e31, e40, e41, e50, e51, e60, e61⟩ := block_index t
  funext a; apply Fin.ext
  match a with
  | ⟨0, _⟩ => show win2_1.index t (0 : Fin 2) * 3000 + 1 * (y 0).val = t.val * 3000 + (y 0).val; omega
  | ⟨1, _⟩ => show win2_1.index t (1 : Fin 2) * 16 + 1 * (y 1).val = (y 1).val; omega
theorem emb_rows16_6 (t : Fin cfg2.N) (y : S3000x16.Idx) :
    (((cfg2.win 6).blk t).view.emb y : S300000x16.Idx) = shift (t.val * 3000) (rows_le t) y := by
  obtain ⟨e00, e01, e10, e11, e20, e21, e30, e31, e40, e41, e50, e51, e60, e61⟩ := block_index t
  funext a; apply Fin.ext
  match a with
  | ⟨0, _⟩ => show win2_6.index t (0 : Fin 2) * 3000 + 1 * (y 0).val = t.val * 3000 + (y 0).val; omega
  | ⟨1, _⟩ => show win2_6.index t (1 : Fin 2) * 16 + 1 * (y 1).val = (y 1).val; omega
theorem emb_rows1 (t : Fin cfg2.N) (y : S3000x1.Idx) :
    (((cfg2.win 2).blk t).view.emb y : S300000x1.Idx) = shift (t.val * 3000) (rows_le t) y := by
  obtain ⟨e00, e01, e10, e11, e20, e21, e30, e31, e40, e41, e50, e51, e60, e61⟩ := block_index t
  funext a; apply Fin.ext
  match a with
  | ⟨0, _⟩ => show win2_2.index t (0 : Fin 2) * 3000 + 1 * (y 0).val = t.val * 3000 + (y 0).val; omega
  | ⟨1, _⟩ => show win2_2.index t (1 : Fin 2) * 1 + 1 * (y 1).val = (y 1).val; omega

/-- The weights' and the bias' blocks are their whole arrays. -/
theorem emb_w3 (t : Fin cfg2.N) (y : S16x16.Idx) : (((cfg2.win 3).blk t).view.emb y : S16x16.Idx) = y := by
  obtain ⟨e00, e01, e10, e11, e20, e21, e30, e31, e40, e41, e50, e51, e60, e61⟩ := block_index t
  funext a; apply Fin.ext
  match a with
  | ⟨0, _⟩ => show win2_3.index t (0 : Fin 2) * 16 + 1 * (y 0).val = (y 0).val; omega
  | ⟨1, _⟩ => show win2_3.index t (1 : Fin 2) * 16 + 1 * (y 1).val = (y 1).val; omega
theorem emb_w4 (t : Fin cfg2.N) (y : S1x16.Idx) : (((cfg2.win 4).blk t).view.emb y : S1x16.Idx) = y := by
  obtain ⟨e00, e01, e10, e11, e20, e21, e30, e31, e40, e41, e50, e51, e60, e61⟩ := block_index t
  funext a; apply Fin.ext
  match a with
  | ⟨0, _⟩ => show win2_4.index t (0 : Fin 2) * 1 + 1 * (y 0).val = (y 0).val; omega
  | ⟨1, _⟩ => show win2_4.index t (1 : Fin 2) * 16 + 1 * (y 1).val = (y 1).val; omega
theorem emb_w5 (t : Fin cfg2.N) (y : S16x16.Idx) : (((cfg2.win 5).blk t).view.emb y : S16x16.Idx) = y := by
  obtain ⟨e00, e01, e10, e11, e20, e21, e30, e31, e40, e41, e50, e51, e60, e61⟩ := block_index t
  funext a; apply Fin.ext
  match a with
  | ⟨0, _⟩ => show win2_5.index t (0 : Fin 2) * 16 + 1 * (y 0).val = (y 0).val; omega
  | ⟨1, _⟩ => show win2_5.index t (1 : Fin 2) * 16 + 1 * (y 1).val = (y 1).val; omega

/-- The blocks a point is handed, read off the arrays as the region finds them. -/
theorem blk0 (c : Dev nD) (t : Fin cfg2.N) : iblk2 V c 0 t = fun y => V c main_v58 (shift (t.val * 3000) (rows_le t) y) :=
  funext fun y => congrArg (V c main_v58) (emb_rows16_0 t y)
theorem blk1 (c : Dev nD) (t : Fin cfg2.N) : iblk2 V c 1 t = fun y => V c main_v48 (shift (t.val * 3000) (rows_le t) y) :=
  funext fun y => congrArg (V c main_v48) (emb_rows16_1 t y)
theorem blk2 (c : Dev nD) (t : Fin cfg2.N) : iblk2 V c 2 t = fun y => V c main_v12 (shift (t.val * 3000) (rows_le t) y) :=
  funext fun y => congrArg (V c main_v12) (emb_rows1 t y)
theorem blk3 (c : Dev nD) (t : Fin cfg2.N) : iblk2 V c 3 t = V c main_v60 :=
  funext fun y => congrArg (V c main_v60) (emb_w3 t y)
theorem blk4 (c : Dev nD) (t : Fin cfg2.N) : iblk2 V c 4 t = V c main_v65 :=
  funext fun y => congrArg (V c main_v65) (emb_w4 t y)
theorem blk5 (c : Dev nD) (t : Fin cfg2.N) : iblk2 V c 5 t = V c main_v64 :=
  funext fun y => congrArg (V c main_v64) (emb_w5 t y)

/-- What the layer region leaves in its result array, as a function of the arrays it finds. -/
abbrev result (c : Dev nD) : S300000x16.Idx → EReal :=
  layerLin (V c main_v58) (V c main_v48) (V c main_v12) (V c main_v60) (V c main_v64) (V c main_v65)

/-- Point t writes back rows 3000·t … 3000·t + 2999 of the layer of the whole arrays. -/
theorem flushed_eq (c : Dev nD) (t : Fin cfg2.N) :
    (dat2 V c).flushed 6 t = ((cfg2.win 6).blk t).view.read (Elt Ideal) (result V c) := by
  show (cfg2.win 6).cut (grid2.coords t) ((dat2 V c).after 6 t) = _
  rw [after2_6]
  unfold out2_6
  rw [View.canon_unit_zero zero_offsets]
  simp only [View.ld_unit_zero (S := S3000x16) zero_offsets, View.ld_unit_zero (S := S3000x1) zero_offsets,
    View.ld_unit_zero (S := S16x16) zero_offsets, View.ld_unit_zero (S := S1x16) zero_offsets]
  rw [pay_eq, blk0, blk1, blk2, blk3, blk4, blk5]
  funext y
  show layerLin _ _ _ _ _ _ y = result V c (((cfg2.win 6).blk t).view.emb y)
  rw [emb_rows16_6 t y]
  exact layerLin_rows _ _ _ _ _ _ _ _ y

/-- A row of the result array belongs to the block of the point that its number divided by 3000 names. -/
theorem mem_block (t : Fin cfg2.N) (i : S300000x16.Idx) :
    i ∈ ((cfg2.win 6).blk t).view.set ↔ ∀ a : Fin 2, win2_6.index t a * S3000x16.size a ≤ (i a).val ∧ (i a).val < win2_6.index t a * S3000x16.size a + S3000x16.size a := by
  show i ∈ ((View.whole main_v66).slice (win2_6.rect t)).set ↔ _
  rw [View.set_slice_whole, Rect.mem_set_unit]
  exact Iff.rfl

theorem cover (i : S300000x16.Idx) :
    ∃ t : Fin cfg2.N, (cfg2.win 6).flush t = true ∧ i ∈ ((cfg2.win 6).blk t).view.set := by
  have hi0 : (i 0).val < 300000 := idx2_lt0 i
  have hi1 : (i 1).val < 16 := idx2_lt1 i
  have hN : grid2.N = 100 := N_2
  let t : Fin cfg2.N := ⟨(i 0).val / 3000, by show (i 0).val / 3000 < grid2.N; rw [hN]; omega⟩
  obtain ⟨e00, e01, e10, e11, e20, e21, e30, e31, e40, e41, e50, e51, e60, e61⟩ := block_index t
  have ht : t.val = (i 0).val / 3000 := rfl
  refine ⟨t, flush2_6 t, ?_⟩
  rw [mem_block]
  intro a
  match a with
  | ⟨0, _⟩ => show win2_6.index t (0 : Fin 2) * 3000 ≤ (i 0).val ∧ (i 0).val < win2_6.index t (0 : Fin 2) * 3000 + 3000; omega
  | ⟨1, _⟩ => show win2_6.index t (1 : Fin 2) * 16 ≤ (i 1).val ∧ (i 1).val < win2_6.index t (1 : Fin 2) * 16 + 16; omega

/-- The result array after the region. -/
theorem array_eq (c : Dev nD) : (dat2 V c).arrAt 6 cfg2.N = result V c :=
  (dat2 V c).arrAt_eq_of_cover 6 (result V c) (fun t _ => flushed_eq V c t) cover

end Cert.KernelIdeal.Layer2

end
-- ==== Proof.FoldLayer3.lean ====
/-
  The third layer's region, in the fold of buffer contents.

  At the region's entry its six operand arrays hold the reference's corresponding stages (the neighbour sums, the
  node features, the inverse in-degree column, the two weight matrices, the bias row); the region leaves the layer of
  those arrays in its result array; and the reference's next stage is that same layer.  The buffers the later stages
  read are not touched by the region (the inverse in-degree column is one of its inputs, which it only reads).
-/
import proofs.«150990_j15101105013418_2_alg».proof.Proof.FoldKept5
import proofs.«150990_j15101105013418_2_alg».proof.Proof.FoldOps2
import proofs.«150990_j15101105013418_2_alg».proof.Proof.Layer2Block
import proofs.«150990_j15101105013418_2_alg».proof.Proof.RefLayers

set_option maxRecDepth 16384

noncomputable section

namespace Cert.Bridge

open Idealize.ShloMosaic Idealize.ShloMosaic.TcCoe Idealize.SL.Sem Idealize.ShloMosaic.StableHlo
open Cert.KernelIdeal Cert.KernelIdeal.Gen
open Cert.ReferenceIdeal.Read Cert.GraphNet

variable (m : (ℓ : Loc nD τ sig) → Buf (Elt Ideal) ℓ) (ρ : Dev nD → PrngReg) (c : Dev nD)

open Cert.ReferenceIdeal.Layers

/-- The node features after the third layer, as the kernel leaves them, are the reference's. -/
theorem out3 : W6 m ρ c (Proc.devRef .tc main_v66) = val_main_v86 (F := Ideal) (L0 m c) (L1 m c) (L3 m c) (L4 m c) (L5 m c) := by
  refine (W6_arr m ρ c 6).trans ?_
  rw [Cert.KernelIdeal.Layer2.array_eq]
  show layerLin (W5 m ρ c (Proc.devRef .tc main_v58)) (W5 m ρ c (Proc.devRef .tc main_v48))
      (W5 m ρ c (Proc.devRef .tc main_v12)) (W5 m ρ c (Proc.devRef .tc main_v60))
      (W5 m ρ c (Proc.devRef .tc main_v64)) (W5 m ρ c (Proc.devRef .tc main_v65)) = _
  rw [agg3 m ρ c, feat3 m ρ c, (kept5 m ρ c).inv, wl3 m ρ c, wr3 m ρ c, bias3 m ρ c]
  exact (layer3 _ _ _ _ _ shapeCasts_S300000_S300000x1 shapeCasts_S16_S1x16).symm

/-- The region leaves what the later stages read as it found it. -/
theorem kept6 : Kept m c (W6 m ρ c) :=
  have h := kept5 m ρ c
  ⟨(W6_of_ne m ρ c main_v1 (by decide)).trans h.src, (W6_of_ne m ρ c main_v3 (by decide)).trans h.dst,
   ((W6_arr m ρ c 2).trans (((dat2 (V5 m ρ) c).arrAt_in 2 rfl _).trans (A_eq2 (V5 m ρ) c 2))).trans h.inv,
   (W6_of_ne m ρ c main_arg2 (by decide)).trans h.a2,
   (W6_of_ne m ρ c main_arg3 (by decide)).trans h.a3,
   (W6_of_ne m ρ c main_arg4 (by decide)).trans h.a4,
   (W6_of_ne m ρ c main_arg5 (by decide)).trans h.a5,
   (W6_of_ne m ρ c main_arg6 (by decide)).trans h.a6,
   (W6_of_ne m ρ c main_arg7 (by decide)).trans h.a7⟩

end Cert.Bridge

end
-- ==== Proof.FoldOps3.lean ====
/-
  What the last stretch of host operations leaves for the pooling region: each graph's sum of its nodes' third-layer
  features, each graph's node count as a column, the output weights, and the output bias as a one-by-one array.
-/
import proofs.«150990_j15101105013418_2_alg».proof.Proof.FoldLayer3

set_option maxRecDepth 16384

noncomputable section

namespace Cert.Bridge

open Idealize.ShloMosaic Idealize.ShloMosaic.TcCoe Idealize.SL.Sem Idealize.ShloMosaic.StableHlo
open Cert.KernelIdeal Cert.KernelIdeal.Gen
open Cert.ReferenceIdeal.Read Cert.GraphNet

variable (m : (ℓ : Loc nD τ sig) → Buf (Elt Ideal) ℓ) (ρ : Dev nD → PrngReg) (c : Dev nD)

set_option maxHeartbeats 4000000 in
/-- Each graph's sum of the third layer's features over its nodes. -/
theorem gsum : W7 m ρ c (Proc.devRef .tc main_v70) = val_main_v89 (F := Ideal) (L0 m c) (L1 m c) (L2 m c) (L3 m c) (L4 m c) (L5 m c) := by
  show StableHlo.after hostOps3 (W6 m ρ c) (Proc.devRef .tc main_v70) = _
  after_results
  rw [(kept6 m ρ c).a2, out3 m ρ c]
  first | done | rfl

set_option maxHeartbeats 4000000 in
/-- Each graph's number of nodes, as a column. -/
theorem gcnt : W7 m ρ c (Proc.devRef .tc main_v74) = shapeCast S1000x1 (val_main_v93 (F := Ideal) (L2 m c)) shapeCasts_S1000_S1000x1 := by
  show StableHlo.after hostOps3 (W6 m ρ c) (Proc.devRef .tc main_v74) = _
  after_results
  rw [(kept6 m ρ c).a2]
  first | done | rfl

set_option maxHeartbeats 4000000 in
/-- The stretch does not write the output weights. -/
theorem wout : W7 m ρ c (Proc.devRef .tc main_arg6) = L6 m c := by
  show StableHlo.after hostOps3 (W6 m ρ c) (Proc.devRef .tc main_arg6) = _
  after_results
  rw [(kept6 m ρ c).a6]
  first | done | rfl

set_option maxHeartbeats 4000000 in
/-- The output bias, as a one-by-one array. -/
theorem bout : W7 m ρ c (Proc.devRef .tc main_v75) = shapeCast S1x1 (L7 m c) shapeCasts_S1_S1x1 := by
  show StableHlo.after hostOps3 (W6 m ρ c) (Proc.devRef .tc main_v75) = _
  after_results
  rw [(kept6 m ρ c).a7]
  first | done | rfl

end Cert.Bridge

end
-- ==== Proof.PoolBlock.lean ====
/-
  The pooling region: the array it leaves is the pooled head of the arrays it is given.

  The region has one grid point, handed the whole of the per-graph feature sums, of the per-graph node counts (a
  column), of the output weights and of the output bias.  The body raises each count to at least one, divides each
  graph's sums by it, contracts the quotient with the output weights into a zero accumulator and adds the bias; the one
  block it writes back is the whole result array.  All of it holds for whatever contents the region finds.
-/
import proofs.«150990_j15101105013418_2_alg».proof.Proof.Gen.KernelIdeal.Frame
import proofs.«150990_j15101105013418_2_alg».proof.Proof.NodeRow
import proofs.«150990_j15101105013418_2_alg».proof.Proof.LibRowLayout
import Idealize.ShloMosaic.Lib.Pipeline.Value
import Idealize.ShloMosaic.Lib.ValueLayout

set_option maxRecDepth 16384

noncomputable section

namespace Cert.KernelIdeal.Pool

open Idealize.ShloMosaic Idealize.ShloMosaic.TcCoe Idealize.ShloMosaic.ValueIdx Idealize.SL.Sem
open Idealize.ShloMosaic.Pipeline (Dat)
open Cert.KernelIdeal Cert.KernelIdeal.Gen Cert.GraphNet Cert.Lib.PlainDot Cert.KernelIdeal.MvnKernel

/-- The body's arithmetic, as one term of the arrays it loads, is the pooled head of those arrays. -/
theorem pay_eq (x0 : Vec Ideal S1000x16 .f32) (x1 : Vec Ideal S1000x1 .f32) (x2 : Vec Ideal S16x1 .f32)
    (x3 : Vec Ideal S1x1 .f32) :
    k3_pay1 (F := Ideal) x1 x0 x2 x3 = poolHead (FloatOps.ofBits (F := Ideal) .f32 0x3F800000#32) x0 x1 x2 x3 := by
  funext j
  obtain ⟨p, q, rfl⟩ : ∃ (p : Fin 1000) (q : Fin 1), j = ix2 p q := ⟨j 0, j 1, eq_ix2 j⟩
  unfold k3_pay1 poolHead
  simp only [shapeCast_self]
  have hs : truncf (F := Ideal) .bf16 (divf x0 (broadcastTo S1000x16 (maximumf x1 (broadcast S1000x1 (FloatOps.ofBits (F := Ideal) .f32 0x3F800000#32)))
        broadcasts_S1000x1_S1000x16)) bitsLt_bf16_f32
      = fun i => Ideal.div (x0 i) (max (x1 (colOf i)) (FloatOps.ofBits (F := Ideal) .f32 0x3F800000#32)) := funext fun i => by
    obtain ⟨a, k, rfl⟩ : ∃ (a : Fin 1000) (k : Fin 16), i = ix2 a k := ⟨i 0, i 1, eq_ix2 i⟩
    show Ideal.div (x0 (ix2 a k)) (broadcastTo S1000x16 (maximumf x1 (broadcast S1000x1 (FloatOps.ofBits (F := Ideal) .f32 0x3F800000#32)))
      broadcasts_S1000x1_S1000x16 (ix2 a k)) = _
    rw [broadcastTo_a1_ab_apply]
    rfl
  show FloatOps.matmul (F := Ideal) dot_S1000x16_S16x1_S1000x1_1_0_0_1_n_n none _ _ (constant (F := Ideal) S1000x1 .f32 0x00000000#32) (ix2 p q)
      + broadcastTo S1000x1 x3 broadcasts_S1x1_S1000x1 (ix2 p q) = _
  rw [matmul_zero_apply (R := 1000) (K := 16) (C := 1) dot_S1000x16_S16x1_S1000x1_1_0_0_1_n_n rfl, broadcastTo_1b_ab_apply, hs]
  rfl

variable (V : (c : Dev nD) → (b : Ref sig .tc) → Buf (Elt Ideal) ((c : Thread nD τ).loc b))

theorem zero_offsets : (![0, 0] : Fin 2 → Nat) = fun _ => 0 := funext fun a => by fin_cases a <;> rfl

/-- Every window's one block is block (0, 0). -/
theorem block_index : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Each window's block is its whole array. -/
theorem emb_w0 (t : Fin cfg3.N) (y : S1000x16.Idx) : (((cfg3.win 0).blk t).view.emb y : S1000x16.Idx) = y := by
  obtain ⟨e00, e01, e10, e11, e20, e21, e30, e31, e40, e41⟩ := block_index t
  funext a; apply Fin.ext
  match a with
  | ⟨0, _⟩ => show win3_0.index t (0 : Fin 2) * 1000 + 1 * (y 0).val = (y 0).val; omega
  | ⟨1, _⟩ => show win3_0.index t (1 : Fin 2) * 16 + 1 * (y 1).val = (y 1).val; omega
theorem emb_w1 (t : Fin cfg3.N) (y : S1000x1.Idx) : (((cfg3.win 1).blk t).view.emb y : S1000x1.Idx) = y := by
  obtain ⟨e00, e01, e10, e11, e20, e21, e30, e31, e40, e41⟩ := block_index t
  funext a; apply Fin.ext
  match a with
  | ⟨0, _⟩ => show win3_1.index t (0 : Fin 2) * 1000 + 1 * (y 0).val = (y 0).val; omega
  | ⟨1, _⟩ => show win3_1.index t (1 : Fin 2) * 1 + 1 * (y 1).val = (y 1).val; omega
theorem emb_w2 (t : Fin cfg3.N) (y : S16x1.Idx) : (((cfg3.win 2).blk t).view.emb y : S16x1.Idx) = y := by
  obtain ⟨e00, e01, e10, e11, e20, e21, e30, e31, e40, e41⟩ := block_index t
  funext a; apply Fin.ext
  match a with
  | ⟨0, _⟩ => show win3_2.index t (0 : Fin 2) * 16 + 1 * (y 0).val = (y 0).val; omega
  | ⟨1, _⟩ => show win3_2.index t (1 : Fin 2) * 1 + 1 * (y 1).val = (y 1).val; omega
theorem emb_w3 (t : Fin cfg3.N) (y : S1x1.Idx) : (((cfg3.win 3).blk t).view.emb y : S1x1.Idx) = y := by
  obtain ⟨e00, e01, e10, e11, e20, e21, e30, e31, e40, e41⟩ := block_index t
  funext a; apply Fin.ext
  match a with
  | ⟨0, _⟩ => show win3_3.index t (0 : Fin 2) * 1 + 1 * (y 0).val = (y 0).val; omega
  | ⟨1, _⟩ => show win3_3.index t (1 : Fin 2) * 1 + 1 * (y 1).val = (y 1).val; omega
theorem emb_w4 (t : Fin cfg3.N) (y : S1000x1.Idx) : (((cfg3.win 4).blk t).view.emb y : S1000x1.Idx) = y := by
  obtain ⟨e00, e01, e10, e11, e20, e21, e30, e31, e40, e41⟩ := block_index t
  funext a; apply Fin.ext
  match a with
  | ⟨0, _⟩ => show win3_4.index t (0 : Fin 2) * 1000 + 1 * (y 0).val = (y 0).val; omega
  | ⟨1, _⟩ => show win3_4.index t (1 : Fin 2) * 1 + 1 * (y 1).val = (y 1).val; omega

theorem blk0 (c : Dev nD) (t : Fin cfg3.N) : iblk3 V c 0 t = V c main_v70 :=
  funext fun y => congrArg (V c main_v70) (emb_w0 t y)
theorem blk1 (c : Dev nD) (t : Fin cfg3.N) : iblk3 V c 1 t = V c main_v74 :=
  funext fun y => congrArg (V c main_v74) (emb_w1 t y)
theorem blk2 (c : Dev nD) (t : Fin cfg3.N) : iblk3 V c 2 t = V c main_arg6 :=
  funext fun y => congrArg (V c main_arg6) (emb_w2 t y)
theorem blk3 (c : Dev nD) (t : Fin cfg3.N) : iblk3 V c 3 t = V c main_v75 :=
  funext fun y => congrArg (V c main_v75) (emb_w3 t y)

/-- What the pooling region leaves in its result array, as a function of the arrays it finds. -/
abbrev result (c : Dev nD) : S1000x1.Idx → EReal :=
  poolHead (FloatOps.ofBits (F := Ideal) .f32 0x3F800000#32) (V c main_v70) (V c main_v74) (V c main_arg6) (V c main_v75)

/-- The one point writes back the whole pooled head. -/
theorem flushed_eq (c : Dev nD) (t : Fin cfg3.N) :
    (dat3 V c).flushed 4 t = ((cfg3.win 4).blk t).view.read (Elt Ideal) (result V c) := by
  show (cfg3.win 4).cut (grid3.coords t) ((dat3 V c).after 4 t) = _
  rw [after3_4]
  unfold out3_4
  rw [View.canon_unit_zero zero_offsets]
  simp only [View.ld_unit_zero (S := S1000x16) zero_offsets, View.ld_unit_zero (S := S1000x1) zero_offsets,
    View.ld_unit_zero (S := S16x1) zero_offsets, View.ld_unit_zero (S := S1x1) zero_offsets]
  rw [pay_eq, blk0, blk1, blk2, blk3]
  funext y
  show poolHead _ _ _ _ _ y = result V c (((cfg3.win 4).blk t).view.emb y)
  rw [emb_w4 t y]

theorem mem_block (t : Fin cfg3.N) (i : S1000x1.Idx) :
    i ∈ ((cfg3.win 4).blk t).view.set ↔ ∀ a : Fin 2, win3_4.index t a * S1000x1.size a ≤ (i a).val ∧ (i a).val < win3_4.index t a * S1000x1.size a + S1000x1.size a := by
  show i ∈ ((View.whole main_v76).slice (win3_4.rect t)).set ↔ _
  rw [View.set_slice_whole, Rect.mem_set_unit]
  exact Iff.rfl

theorem cover (i : S1000x1.Idx) :
    ∃ t : Fin cfg3.N, (cfg3.win 4).flush t = true ∧ i ∈ ((cfg3.win 4).blk t).view.set := by
  have hi0 : (i 0).val < 1000 := idx2_lt0 i
  have hi1 : (i 1).val < 1 := idx2_lt1 i
  obtain ⟨e00, e01, e10, e11, e20, e21, e30, e31, e40, e41⟩ := block_index t3_0
  refine ⟨t3_0, flush3_4 t3_0, ?_⟩
  rw [mem_block]
  intro a
  match a with
  | ⟨0, _⟩ => show win3_4.index t3_0 (0 : Fin 2) * 1000 ≤ (i 0).val ∧ (i 0).val < win3_4.index t3_0 (0 : Fin 2) * 1000 + 1000; omega
  | ⟨1, _⟩ => show win3_4.index t3_0 (1 : Fin 2) * 1 ≤ (i 1).val ∧ (i 1).val < win3_4.index t3_0 (1 : Fin 2) * 1 + 1; omega

/-- The result array after the region. -/
theorem array_eq (c : Dev nD) : (dat3 V c).arrAt 4 cfg3.N = result V c :=
  (dat3 V c).arrAt_eq_of_cover 4 (result V c) (fun t _ => flushed_eq V c t) cover

end Cert.KernelIdeal.Pool

end
-- ==== Proof.FoldPool.lean ====
/-
  The pooling region, and with it the program's result: at the region's entry its operand arrays hold the reference's
  per-graph sums, per-graph counts (as a column), output weights and output bias; the region leaves their pooled head
  in the result array; and the reference's result is that same pooled head.
-/
import proofs.«150990_j15101105013418_2_alg».proof.Proof.FoldOps3
import proofs.«150990_j15101105013418_2_alg».proof.Proof.PoolBlock
import proofs.«150990_j15101105013418_2_alg».proof.Proof.RefLayers

set_option maxRecDepth 16384

noncomputable section

namespace Cert.Bridge

open Idealize.ShloMosaic Idealize.ShloMosaic.TcCoe Idealize.SL.Sem Idealize.ShloMosaic.StableHlo
open Cert.KernelIdeal Cert.KernelIdeal.Gen
open Cert.ReferenceIdeal.Read Cert.GraphNet

variable (m : (ℓ : Loc nD τ sig) → Buf (Elt Ideal) ℓ) (ρ : Dev nD → PrngReg) (c : Dev nD)

open Cert.ReferenceIdeal.Layers

/-- The result array, as the kernel leaves it, is the reference's result as a function of the launched arguments. -/
theorem result_eq : W8 m ρ c (Proc.devRef .tc main_v76)
    = val_main_v102 (F := Ideal) (L0 m c) (L1 m c) (L2 m c) (L3 m c) (L4 m c) (L5 m c) (L6 m c) (L7 m c) := by
  refine (W8_arr m ρ c 4).trans ?_
  rw [Cert.KernelIdeal.Pool.array_eq]
  show poolHead (FloatOps.ofBits (F := Ideal) .f32 0x3F800000#32) (W7 m ρ c (Proc.devRef .tc main_v70)) (W7 m ρ c (Proc.devRef .tc main_v74))
      (W7 m ρ c (Proc.devRef .tc main_arg6)) (W7 m ρ c (Proc.devRef .tc main_v75)) = _
  rw [gsum m ρ c, gcnt m ρ c, wout m ρ c, bout m ρ c]
  exact (pooled _ _ _ _ _ _ _ _ shapeCasts_S1000_S1000x1 shapeCasts_S1_S1x1).symm

end Cert.Bridge

end
-- ==== Proof.lean ====
/-
  A three-layer mean-aggregation graph network with a pooled linear head: the tiled kernel program computes what the
  plain reference program computes, on the extended reals.

  Both programs take node features (300000 nodes, 16 features), an edge list (4800000 edges), the graph each node
  belongs to (1000 graphs), three pairs of 16×16 weight matrices with their biases, and an output weight vector and bias.
  One over each node's in-degree (raised to at least one) is computed once.  Each layer gathers the current features
  at the edges' sources, sums them at the edges' destinations, and maps node r to
      ( Σₖ (agg (r,k) · inv r) · Wl (k,c)  +  Σₖ h (r,k) · Wr (k,c) )  +  b c        (kernel),
      ( Σₖ (agg (r,k) · inv r) · Wl (k,c)  +  b c )  +  Σₖ h (r,k) · Wr (k,c)        (reference),
  followed in the first two layers by the maximum with zero.  The two differ only in the order in which three extended
  reals are added, and addition of extended reals is commutative and associative, infinities included; no input needs
  to be finite for it.  Then each graph's features are summed over its nodes, divided by its node count (raised to at
  least one), contracted with the output weights, and the output bias is added; the two programs do this identically.

  The gathers and scatters are host operations in both programs and are the same operations, so they are never opened:
  the kernel's buffers are followed from the launch through its four regions and the host stretches between them
  (Proof/Fold*.lean), each region's result being the layer, or the pooled head, of the arrays it is handed
  (Proof/Layer*Block.lean, Proof/PoolBlock.lean: the body's arithmetic on a block of 3000 rows is that block of the layer
  of the whole arrays, Proof/NodeRow.lean, and the 100 blocks tile the rows), and each stage met with the reference's own
  stage (Proof/RefLayers.lean).  The kernel's run with its final buffer contents named is Proof/KernelRun.lean.  The word-level
  kernel and its idealization are the same text, so nothing is owed for the idealization.
-/
import proofs.«150990_j15101105013418_2_alg».proof.Defs
import proofs.«150990_j15101105013418_2_alg».proof.Proof.Gen.Kernel
import proofs.«150990_j15101105013418_2_alg».proof.Proof.Gen.Kernel.Skeleton
import proofs.«150990_j15101105013418_2_alg».proof.Proof.Gen.Kernel.Launch
import proofs.«150990_j15101105013418_2_alg».proof.Proof.Gen.Kernel.Points
import proofs.«150990_j15101105013418_2_alg».proof.Proof.Gen.Kernel.Frame
import proofs.«150990_j15101105013418_2_alg».proof.Proof.Gen.KernelIdeal
import proofs.«150990_j15101105013418_2_alg».proof.Proof.Gen.KernelIdeal.Skeleton
import proofs.«150990_j15101105013418_2_alg».proof.Proof.Gen.KernelIdeal.Launch
import proofs.«150990_j15101105013418_2_alg».proof.Proof.Gen.KernelIdeal.Points
import proofs.«150990_j15101105013418_2_alg».proof.Proof.Gen.KernelIdeal.Frame
import proofs.«150990_j15101105013418_2_alg».proof.Proof.Gen.ReferenceIdeal
import proofs.«150990_j15101105013418_2_alg».proof.Proof.Gen.Pre_finite_inputs
import proofs.«150990_j15101105013418_2_alg».proof.Proof.Gen.ReferenceIdeal.Run
import proofs.«150990_j15101105013418_2_alg».proof.Proof.Gen.ReferenceIdeal.Read
import proofs.«150990_j15101105013418_2_alg».proof.Proof.KernelRun
import proofs.«150990_j15101105013418_2_alg».proof.Proof.FoldPool
import Idealize.ShloMosaic.Adequacy
import Idealize.ShloMosaic.Init

noncomputable section

namespace Cert.Proof

open Idealize.ShloMosaic Idealize.ShloMosaic.TcCoe Idealize.SL.Sem Cert.Kernel

/-- The word-level kernel runs, faults nowhere and leaves its arguments as launched. -/
theorem frame_kernel : Cert.frame_Kernel :=
  fun m ρ _ => Cert.Kernel.Gen.frame m ρ

/-- So does the kernel read on the extended reals. -/
theorem frame_kernelIdeal : Cert.frame_KernelIdeal :=
  fun m ρ _ => Cert.KernelIdeal.Gen.frame m ρ

/-- So does the reference: its run with the result forgotten. -/
theorem frame_referenceIdeal : Cert.frame_ReferenceIdeal :=
  fun m ρ _ => (θ_run Cert.ReferenceIdeal.defs _ _).mono (fun _ h c => (h c).2)
    (Cert.ReferenceIdeal.Value.run (F := Ideal) m ρ)

/-- On the extended reals, from memories that agree on the arguments, both programs end with the same result: the
    kernel's result array is the last stage of the fold of its buffers, which is the reference's result as a function
    of the launched arguments. -/
theorem algebraic : Cert.algebraic_KernelIdeal_ReferenceIdeal := by
  intro m ρ m' ρ' _ hagree
  refine ⟨fun c => Cert.KernelIdeal.Gen.W8 m ρ c (Proc.devRef .tc Cert.KernelIdeal.main_v76), ?_, ?_⟩
  · exact (θ_run Cert.KernelIdeal.defs _ _).mono (fun r h c =>
      ⟨Cert.KernelIdeal.Whole.run_at m ρ Cert.KernelIdeal.main_v76 (by decide) r h c,
       (Cert.KernelIdeal.Whole.run_at m ρ Cert.KernelIdeal.main_arg0 (by decide) r h c).trans (Cert.KernelIdeal.Gen.W8_main_arg0 m ρ c),
       (Cert.KernelIdeal.Whole.run_at m ρ Cert.KernelIdeal.main_arg1 (by decide) r h c).trans (Cert.KernelIdeal.Gen.W8_main_arg1 m ρ c),
       (Cert.KernelIdeal.Whole.run_at m ρ Cert.KernelIdeal.main_arg2 (by decide) r h c).trans (Cert.KernelIdeal.Gen.W8_main_arg2 m ρ c),
       (Cert.KernelIdeal.Whole.run_at m ρ Cert.KernelIdeal.main_arg3 (by decide) r h c).trans (Cert.KernelIdeal.Gen.W8_main_arg3 m ρ c),
       (Cert.KernelIdeal.Whole.run_at m ρ Cert.KernelIdeal.main_arg4 (by decide) r h c).trans (Cert.KernelIdeal.Gen.W8_main_arg4 m ρ c),
       (Cert.KernelIdeal.Whole.run_at m ρ Cert.KernelIdeal.main_arg5 (by decide) r h c).trans (Cert.KernelIdeal.Gen.W8_main_arg5 m ρ c),
       (Cert.KernelIdeal.Whole.run_at m ρ Cert.KernelIdeal.main_arg6 (by decide) r h c).trans (Cert.KernelIdeal.Gen.W8_main_arg6 m ρ c),
       (Cert.KernelIdeal.Whole.run_at m ρ Cert.KernelIdeal.main_arg7 (by decide) r h c).trans (Cert.KernelIdeal.Gen.W8_main_arg7 m ρ c)⟩)
      (Cert.KernelIdeal.Whole.run_all (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v102_eq, (hagree c).1, (hagree c).2.1, (hagree c).2.2.1, (hagree c).2.2.2.1, (hagree c).2.2.2.2.1, (hagree c).2.2.2.2.2.1, (hagree c).2.2.2.2.2.2.1, (hagree c).2.2.2.2.2.2.2]
    exact (Cert.Bridge.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
